-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x16x32x32 : Shape := ⟨5, ![16, 32, 16, 32, 32]⟩
abbrev S8 : Shape := ⟨1, ![8]⟩
abbrev S_ : Shape := ⟨0, ![]⟩

class Facts : Prop where
  bcast_S_S16x32x16x32x32 : S_.BroadcastsInDim S16x32x16x32x32 (![] : Fin 0 → Fin S16x32x16x32x32.rank)
  reducesTo_S16x32x16x32x32_S_d0_1_2_3_4 : S16x32x16x32x32.ReducesTo [0, 1, 2, 3, 4] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S16x32x16x32x32 .f32) (main_arg1 : FVec F S8 .f32) (main_arg2 : FVec F S8 .f32) : IVec S_ 1 :=
  let main_v0 : FVec F S16x32x16x32x32 .f32 := Host.absf main_arg0
  let main_cst : FVec F S_ .f32 := constant S_ .f32 0x7F800000#32
  let main_v1 : FVec F S16x32x16x32x32 .f32 := broadcastInDim S16x32x16x32x32 ![] bcast_S_S16x32x16x32x32 main_cst
  let main_v2 : IVec S16x32x16x32x32 1 := cmpf .olt main_v0 main_v1
  let main_c : IVec S_ 1 := constantI S_ 1 1#1
  let main_v3 : IVec S_ 1 := (fun x v => Host.reduce IntOp.andi x v reducesTo_S16x32x16x32x32_S_d0_1_2_3_4 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S16x32x16x32x32 : Shape := ⟨5, ![16, 32, 16, 32, 32]⟩
abbrev S8 : Shape := ⟨1, ![8]⟩
abbrev S16x8x4x128x128 : Shape := ⟨5, ![16, 8, 4, 128, 128]⟩
abbrev S1x8x1x1x1 : Shape := ⟨5, ![1, 8, 1, 1, 1]⟩
abbrev S1x1x1x1x1 : Shape := ⟨5, ![1, 1, 1, 1, 1]⟩
abbrev S16x1x4x128x128 : Shape := ⟨5, ![16, 1, 4, 128, 128]⟩
abbrev S16x1x4 : Shape := ⟨3, ![16, 1, 4]⟩
abbrev S16x1x4x1x1 : Shape := ⟨5, ![16, 1, 4, 1, 1]⟩
abbrev S1x4x1x1 : Shape := ⟨4, ![1, 4, 1, 1]⟩
abbrev S1x1x4x1x1 : Shape := ⟨5, ![1, 1, 4, 1, 1]⟩
abbrev S16x1x1x1 : Shape := ⟨4, ![16, 1, 1, 1]⟩
abbrev S16x1x1x1x1 : Shape := ⟨5, ![16, 1, 1, 1, 1]⟩

abbrev nBuf : Space → Nat
  | .hbm => 8
  | .vmem => 8
  | .smem => 0
  | _ => 0

abbrev bufTy : (tb : Table) → Fin (tcTables nBuf tb) → BufTy
  | .hbm, ⟨0, _⟩ => ⟨S16x32x16x32x32, .f32⟩
  | .hbm, ⟨1, _⟩ => ⟨S8, .f32⟩
  | .hbm, ⟨2, _⟩ => ⟨S8, .f32⟩
  | .hbm, ⟨3, _⟩ => ⟨S16x8x4x128x128, .f32⟩
  | .hbm, ⟨4, _⟩ => ⟨S1x8x1x1x1, .f32⟩
  | .hbm, ⟨5, _⟩ => ⟨S1x8x1x1x1, .f32⟩
  | .hbm, ⟨6, _⟩ => ⟨S16x8x4x128x128, .f32⟩
  | .hbm, ⟨7, _⟩ => ⟨S16x32x16x32x32, .f32⟩
  | .local _ .vmem, ⟨0, _⟩ => ⟨S1x1x1x1x1, .f32⟩
  | .local _ .vmem, ⟨1, _⟩ => ⟨S1x1x1x1x1, .f32⟩
  | .local _ .vmem, ⟨2, _⟩ => ⟨S1x1x1x1x1, .f32⟩
  | .local _ .vmem, ⟨3, _⟩ => ⟨S1x1x1x1x1, .f32⟩
  | .local _ .vmem, ⟨4, _⟩ => ⟨S16x1x4x128x128, .f32⟩
  | .local _ .vmem, ⟨5, _⟩ => ⟨S16x1x4x128x128, .f32⟩
  | .local _ .vmem, ⟨6, _⟩ => ⟨S16x1x4x128x128, .f32⟩
  | .local _ .vmem, ⟨7, _⟩ => ⟨S16x1x4x128x128, .f32⟩
  | _, _ => ⟨S16x32x16x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S1x1x1x1x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1x4x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1x4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x32x16x32x32_S16x8x4x128x128 : S16x32x16x32x32.ShapeCasts S16x8x4x128x128
  shapeCasts_S8_S1x8x1x1x1 : S8.ShapeCasts S1x8x1x1x1
  inb_S16x1x4x128x128_S16x1x4x128x128_0_0_0_0_0 : ∀ a, (![0, 0, 0, 0, 0] : Fin 5 → Nat) a + S16x1x4x128x128.size a ≤ S16x1x4x128x128.size a
  h_S16x1x4x128x128 : 0 < S16x1x4x128x128.numel
  shapeCasts_S16x1x4x128x128_S16x1x4x128x128 : S16x1x4x128x128.ShapeCasts S16x1x4x128x128
  reduces_S16x1x4x128x128_S16x1x4 : S16x1x4x128x128.Reduces [3, 4] S16x1x4
  shapeCasts_S16x1x4_S16x1x4x1x1 : S16x1x4.ShapeCasts S16x1x4x1x1
  reduces_S16x1x4x1x1_S1x4x1x1 : S16x1x4x1x1.Reduces [0] S1x4x1x1
  shapeCasts_S1x4x1x1_S1x1x4x1x1 : S1x4x1x1.ShapeCasts S1x1x4x1x1
  broadcasts_S1x1x4x1x1_S16x1x4x1x1 : S1x1x4x1x1.Broadcasts S16x1x4x1x1
  reduces_S16x1x4x1x1_S16x1x1x1 : S16x1x4x1x1.Reduces [2] S16x1x1x1
  shapeCasts_S16x1x1x1_S16x1x1x1x1 : S16x1x1x1.ShapeCasts S16x1x1x1x1
  inb_S1x1x1x1x1_S1x1x1x1x1_0_0_0_0_0 : ∀ a, (![0, 0, 0, 0, 0] : Fin 5 → Nat) a + S1x1x1x1x1.size a ≤ S1x1x1x1x1.size a
  h_S1x1x1x1x1 : 0 < S1x1x1x1x1.numel
  inpos_S1x1x1x1x1_p0_0_0_0_0 : ∀ a, (![0, 0, 0, 0, 0] : Fin 5 → Nat) a < S1x1x1x1x1.size a
  broadcasts_S16x1x1x1x1_S16x1x4x1x1 : S16x1x1x1x1.Broadcasts S16x1x4x1x1
  broadcasts_S16x1x4x1x1_S16x1x4x128x128 : S16x1x4x1x1.Broadcasts S16x1x4x128x128
  shapeCasts_S16x8x4x128x128_S16x32x16x32x32 : S16x8x4x128x128.ShapeCasts S16x32x16x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1x1x1.size a ≤ S1x8x1x1x1.size a
  hwx0_0 : ∀ i : grid0.Coords, EltTy.bits .f32 = 32 ∨ (Rect.block (s := S1x8x1x1x1) S1x1x1x1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x1x1.size a ≤ S1x8x1x1x1.size a
  hwx0_1 : ∀ i : grid0.Coords, EltTy.bits .f32 = 32 ∨ (Rect.block (s := S1x8x1x1x1) S1x1x1x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1x4x128x128.size a ≤ S16x8x4x128x128.size a
  hwx0_2 : ∀ i : grid0.Coords, EltTy.bits .f32 = 32 ∨ (Rect.block (s := S16x8x4x128x128) S16x1x4x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1x4x128x128.size a ≤ S16x8x4x128x128.size a
  hwx0_3 : ∀ i : grid0.Coords, EltTy.bits .f32 = 32 ∨ (Rect.block (s := S16x8x4x128x128) S16x1x4x128x128.size (cc0_transform_3 i) (hinb0_3 i)).WholeWords (EltTy.packing .f32)

variable [Facts₀]

abbrev win0_0 : Pipeline.Window sig grid0 :=
  Pipeline.Window.ofSpec (Memref.whole main_v1) S1x1x1x1x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x1x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x1x4x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x1x4x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x32x16x32x32 : Shape := ⟨5, ![16, 32, 16, 32, 32]⟩
abbrev S8 : Shape := ⟨1, ![8]⟩
abbrev S512x16384 : Shape := ⟨2, ![512, 16384]⟩
abbrev S512x128 : Shape := ⟨2, ![512, 128]⟩
abbrev S256x4096 : Shape := ⟨2, ![256, 4096]⟩
abbrev S256x128 : Shape := ⟨2, ![256, 128]⟩
abbrev S_ : Shape := ⟨0, ![]⟩
abbrev S512 : Shape := ⟨1, ![512]⟩
abbrev S16x32 : Shape := ⟨2, ![16, 32]⟩
abbrev S32 : Shape := ⟨1, ![32]⟩
abbrev S1x32 : Shape := ⟨2, ![1, 32]⟩
abbrev S16x8x4 : Shape := ⟨3, ![16, 8, 4]⟩
abbrev S16x8 : Shape := ⟨2, ![16, 8]⟩
abbrev S1x8x1 : Shape := ⟨3, ![1, 8, 1]⟩
abbrev S16x8x1 : Shape := ⟨3, ![16, 8, 1]⟩
abbrev S1x8x4 : Shape := ⟨3, ![1, 8, 4]⟩
abbrev S512x1 : Shape := ⟨2, ![512, 1]⟩
abbrev S256x1 : Shape := ⟨2, ![256, 1]⟩

abbrev nBuf : Space → Nat
  | .hbm => 105
  | .vmem => 14
  | .smem => 0
  | _ => 0

abbrev bufTy : (tb : Table) → Fin (tcTables nBuf tb) → BufTy
  | .hbm, ⟨0, _⟩ => ⟨S16x32x16x32x32, .f32⟩
  | .hbm, ⟨1, _⟩ => ⟨S8, .f32⟩
  | .hbm, ⟨2, _⟩ => ⟨S8, .f32⟩
  | .hbm, ⟨3, _⟩ => ⟨S512x16384, .f32⟩
  | .hbm, ⟨4, _⟩ => ⟨S512x128, .f32⟩
  | .hbm, ⟨5, _⟩ => ⟨S512x128, .f32⟩
  | .hbm, ⟨6, _⟩ => ⟨S_, .f32⟩
  | .hbm, ⟨7, _⟩ => ⟨S512, .f32⟩
  | .hbm, ⟨8, _⟩ => ⟨S16x32, .f32⟩
  | .hbm, ⟨9, _⟩ => ⟨S_, .f32⟩
  | .hbm, ⟨10, _⟩ => ⟨S512, .f32⟩
  | .hbm, ⟨11, _⟩ => ⟨S16x32, .f32⟩
  | .hbm, ⟨12, _⟩ => ⟨S_, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S32, .f32⟩
  | .hbm, ⟨31, _⟩ => ⟨S32, .f32⟩
  | .hbm, ⟨32, _⟩ => ⟨S32, .f32⟩
  | .hbm, ⟨33, _⟩ => ⟨S1x32, .f32⟩
  | .hbm, ⟨34, _⟩ => ⟨S16x32, .f32⟩
  | .hbm, ⟨35, _⟩ => ⟨S16x32, .f32⟩
  | .hbm, ⟨36, _⟩ => ⟨S1x32, .f32⟩
  | .hbm, ⟨37, _⟩ => ⟨S_, .f32⟩
  | .hbm, ⟨38, _⟩ => ⟨S1x32, .f32⟩
  | .hbm, ⟨39, _⟩ => ⟨S1x32, .f32⟩
  | .hbm, ⟨40, _⟩ => ⟨S16x32, .f32⟩
  | .hbm, ⟨41, _⟩ => ⟨S16x32, .f32⟩
  | .hbm, ⟨42, _⟩ => ⟨S1x32, .f32⟩
  | .hbm, ⟨43, _⟩ => ⟨S1x32, .f32⟩
  | .hbm, ⟨44, _⟩ => ⟨S16x32, .f32⟩
  | .hbm, ⟨45, _⟩ => ⟨S16x32, .f32⟩
  | .hbm, ⟨46, _⟩ => ⟨S1x32, .f32⟩
  | .hbm, ⟨47, _⟩ => ⟨S_, .f32⟩
  | .hbm, ⟨48, _⟩ => ⟨S1x32, .f32⟩
  | .hbm, ⟨49, _⟩ => ⟨S1x32, .f32⟩
  | .hbm, ⟨50, _⟩ => ⟨S1x32, .f32⟩
  | .hbm, ⟨51, _⟩ => ⟨S1x32, .f32⟩
  | .hbm, ⟨52, _⟩ => ⟨S16x32, .f32⟩
  | .hbm, ⟨53, _⟩ => ⟨S16x32, .f32⟩
  | .hbm, ⟨54, _⟩ => ⟨S16x32, .f32⟩
  | .hbm, ⟨55, _⟩ => ⟨S1x32, .f32⟩
  | .hbm, ⟨56, _⟩ => ⟨S1x32, .f32⟩
  | .hbm, ⟨57, _⟩ => ⟨S_, .f32⟩
  | .hbm, ⟨58, _⟩ => ⟨S1x32, .f32⟩
  | .hbm, ⟨59, _⟩ => ⟨S1x32, .f32⟩
  | .hbm, ⟨60, _⟩ => ⟨S16x32, .f32⟩
  | .hbm, ⟨61, _⟩ => ⟨S16x32, .f32⟩
  | .hbm, ⟨62, _⟩ => ⟨S16x8x4, .f32⟩
  | .hbm, ⟨63, _⟩ => ⟨S_, .f32⟩
  | .hbm, ⟨64, _⟩ => ⟨S16x8, .f32⟩
  | .hbm, ⟨65, _⟩ => ⟨S_, .f32⟩
  | .hbm, ⟨66, _⟩ => ⟨S16x8, .f32⟩
  | .hbm, ⟨67, _⟩ => ⟨S16x8, .f32⟩
  | .hbm, ⟨68, _⟩ => ⟨S16x8x4, .f32⟩
  | .hbm, ⟨69, _⟩ => ⟨S_, .f32⟩
  | .hbm, ⟨70, _⟩ => ⟨S16x8, .f32⟩
  | .hbm, ⟨71, _⟩ => ⟨S_, .f32⟩
  | .hbm, ⟨72, _⟩ => ⟨S16x8, .f32⟩
  | .hbm, ⟨73, _⟩ => ⟨S16x8, .f32⟩
  | .hbm, ⟨74, _⟩ => ⟨S16x8, .f32⟩
  | .hbm, ⟨75, _⟩ => ⟨S16x8, .f32⟩
  | .hbm, ⟨76, _⟩ => ⟨S_, .f32⟩
  | .hbm, ⟨77, _⟩ => ⟨S16x8, .f32⟩
  | .hbm, ⟨78, _⟩ => ⟨S16x8, .f32⟩
  | .hbm, ⟨79, _⟩ => ⟨S_, .f32⟩
  | .hbm, ⟨80, _⟩ => ⟨S16x8, .f32⟩
  | .hbm, ⟨81, _⟩ => ⟨S16x8, .f32⟩
  | .hbm, ⟨82, _⟩ => ⟨S16x8, .f32⟩
  | .hbm, ⟨83, _⟩ => ⟨S1x8x1, .f32⟩
  | .hbm, ⟨84, _⟩ => ⟨S1x8x1, .f32⟩
  | .hbm, ⟨85, _⟩ => ⟨S16x8x1, .f32⟩
  | .hbm, ⟨86, _⟩ => ⟨S16x8x1, .f32⟩
  | .hbm, ⟨87, _⟩ => ⟨S16x8x1, .f32⟩
  | .hbm, ⟨88, _⟩ => ⟨S1x8x4, .f32⟩
  | .hbm, ⟨89, _⟩ => ⟨S16x8x4, .f32⟩
  | .hbm, ⟨90, _⟩ => ⟨S16x8x4, .f32⟩
  | .hbm, ⟨91, _⟩ => ⟨S16x8x4, .f32⟩
  | .hbm, ⟨92, _⟩ => ⟨S512x1, .f32⟩
  | .hbm, ⟨93, _⟩ => ⟨S1x8x4, .f32⟩
  | .hbm, ⟨94, _⟩ => ⟨S16x8x1, .f32⟩
  | .hbm, ⟨95, _⟩ => ⟨S16x8x4, .f32⟩
  | .hbm, ⟨96, _⟩ => ⟨S16x8x4, .f32⟩
  | .hbm, ⟨97, _⟩ => ⟨S16x8x4, .f32⟩
  | .hbm, ⟨98, _⟩ => ⟨S16x8x4, .f32⟩
  | .hbm, ⟨99, _⟩ => ⟨S16x8x4, .f32⟩
  | .hbm, ⟨100, _⟩ => ⟨S16x8x4, .f32⟩
  | .hbm, ⟨101, _⟩ => ⟨S16x8x4, .f32⟩
  | .hbm, ⟨102, _⟩ => ⟨S512x1, .f32⟩
  | .hbm, ⟨103, _⟩ => ⟨S512x16384, .f32⟩
  | .hbm, ⟨104, _⟩ => ⟨S16x32x16x32x32, .f32⟩
  | .local _ .vmem, ⟨0, _⟩ => ⟨S256x4096, .f32⟩
  | .local _ .vmem, ⟨1, _⟩ => ⟨S256x4096, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x4096, .f32⟩
  | .local _ .vmem, ⟨11, _⟩ => ⟨S256x4096, .f32⟩
  | .local _ .vmem, ⟨12, _⟩ => ⟨S256x4096, .f32⟩
  | .local _ .vmem, ⟨13, _⟩ => ⟨S256x4096, .f32⟩
  | _, _ => ⟨S16x32x16x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_9 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_10 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_12 : Ref sig .tc := ⟨.hbm, 69, rfl⟩
abbrev main_v52 : Ref sig .tc := ⟨.hbm, 70, rfl⟩
abbrev main_cst_13 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_14 : Ref sig .tc := ⟨.hbm, 76, rfl⟩
abbrev main_v57 : Ref sig .tc := ⟨.hbm, 77, rfl⟩
abbrev main_v58 : Ref sig .tc := ⟨.hbm, 78, rfl⟩
abbrev main_cst_15 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S16x32x16x32x32_S512x16384 : S16x32x16x32x32.ShapeCasts S512x16384
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x4096_S256x128_0_0 : ∀ a, (![0, 0] : Fin 2 → Nat) a + S256x128.size a ≤ S256x4096.size a
  inb_S256x4096_S256x128_0_128 : ∀ a, (![0, 128] : Fin 2 → Nat) a + S256x128.size a ≤ S256x4096.size a
  inb_S256x4096_S256x128_0_256 : ∀ a, (![0, 256] : Fin 2 → Nat) a + S256x128.size a ≤ S256x4096.size a
  inb_S256x4096_S256x128_0_384 : ∀ a, (![0, 384] : Fin 2 → Nat) a + S256x128.size a ≤ S256x4096.size a
  inb_S256x4096_S256x128_0_512 : ∀ a, (![0, 512] : Fin 2 → Nat) a + S256x128.size a ≤ S256x4096.size a
  inb_S256x4096_S256x128_0_640 : ∀ a, (![0, 640] : Fin 2 → Nat) a + S256x128.size a ≤ S256x4096.size a
  inb_S256x4096_S256x128_0_768 : ∀ a, (![0, 768] : Fin 2 → Nat) a + S256x128.size a ≤ S256x4096.size a
  inb_S256x4096_S256x128_0_896 : ∀ a, (![0, 896] : Fin 2 → Nat) a + S256x128.size a ≤ S256x4096.size a
  inb_S256x4096_S256x128_0_1024 : ∀ a, (![0, 1024] : Fin 2 → Nat) a + S256x128.size a ≤ S256x4096.size a
  inb_S256x4096_S256x128_0_1152 : ∀ a, (![0, 1152] : Fin 2 → Nat) a + S256x128.size a ≤ S256x4096.size a
  inb_S256x4096_S256x128_0_1280 : ∀ a, (![0, 1280] : Fin 2 → Nat) a + S256x128.size a ≤ S256x4096.size a
  inb_S256x4096_S256x128_0_1408 : ∀ a, (![0, 1408] : Fin 2 → Nat) a + S256x128.size a ≤ S256x4096.size a
  inb_S256x4096_S256x128_0_1536 : ∀ a, (![0, 1536] : Fin 2 → Nat) a + S256x128.size a ≤ S256x4096.size a
  inb_S256x4096_S256x128_0_1664 : ∀ a, (![0, 1664] : Fin 2 → Nat) a + S256x128.size a ≤ S256x4096.size a
  inb_S256x4096_S256x128_0_1792 : ∀ a, (![0, 1792] : Fin 2 → Nat) a + S256x128.size a ≤ S256x4096.size a
  inb_S256x4096_S256x128_0_1920 : ∀ a, (![0, 1920] : Fin 2 → Nat) a + S256x128.size a ≤ S256x4096.size a
  inb_S256x4096_S256x128_0_2048 : ∀ a, (![0, 2048] : Fin 2 → Nat) a + S256x128.size a ≤ S256x4096.size a
  inb_S256x4096_S256x128_0_2176 : ∀ a, (![0, 2176] : Fin 2 → Nat) a + S256x128.size a ≤ S256x4096.size a
  inb_S256x4096_S256x128_0_2304 : ∀ a, (![0, 2304] : Fin 2 → Nat) a + S256x128.size a ≤ S256x4096.size a
  inb_S256x4096_S256x128_0_2432 : ∀ a, (![0, 2432] : Fin 2 → Nat) a + S256x128.size a ≤ S256x4096.size a
  inb_S256x4096_S256x128_0_2560 : ∀ a, (![0, 2560] : Fin 2 → Nat) a + S256x128.size a ≤ S256x4096.size a
  inb_S256x4096_S256x128_0_2688 : ∀ a, (![0, 2688] : Fin 2 → Nat) a + S256x128.size a ≤ S256x4096.size a
  inb_S256x4096_S256x128_0_2816 : ∀ a, (![0, 2816] : Fin 2 → Nat) a + S256x128.size a ≤ S256x4096.size a
  inb_S256x4096_S256x128_0_2944 : ∀ a, (![0, 2944] : Fin 2 → Nat) a + S256x128.size a ≤ S256x4096.size a
  inb_S256x4096_S256x128_0_3072 : ∀ a, (![0, 3072] : Fin 2 → Nat) a + S256x128.size a ≤ S256x4096.size a
  inb_S256x4096_S256x128_0_3200 : ∀ a, (![0, 3200] : Fin 2 → Nat) a + S256x128.size a ≤ S256x4096.size a
  inb_S256x4096_S256x128_0_3328 : ∀ a, (![0, 3328] : Fin 2 → Nat) a + S256x128.size a ≤ S256x4096.size a
  inb_S256x4096_S256x128_0_3456 : ∀ a, (![0, 3456] : Fin 2 → Nat) a + S256x128.size a ≤ S256x4096.size a
  inb_S256x4096_S256x128_0_3584 : ∀ a, (![0, 3584] : Fin 2 → Nat) a + S256x128.size a ≤ S256x4096.size a
  inb_S256x4096_S256x128_0_3712 : ∀ a, (![0, 3712] : Fin 2 → Nat) a + S256x128.size a ≤ S256x4096.size a
  inb_S256x4096_S256x128_0_3840 : ∀ a, (![0, 3840] : Fin 2 → Nat) a + S256x128.size a ≤ S256x4096.size a
  inb_S256x4096_S256x128_0_3968 : ∀ a, (![0, 3968] : Fin 2 → Nat) a + S256x128.size a ≤ S256x4096.size a
  reducesTo_S512x128_S512_d1 : S512x128.ReducesTo [1] S512
  h_S_ : 0 < S_.numel
  shapeCasts_S512_S16x32 : S512.ShapeCasts S16x32
  reducesTo_S16x32_S32_d0 : S16x32.ReducesTo [0] S32
  bcast_S_S32 : S_.BroadcastsInDim S32 (![] : Fin 0 → Fin S32.rank)
  bcast_S32_S1x32_1 : S32.BroadcastsInDim S1x32 (![1] : Fin 1 → Fin S1x32.rank)
  bcast_S1x32_S16x32_0_1 : S1x32.BroadcastsInDim S16x32 (![0, 1] : Fin 2 → Fin S16x32.rank)
  bcast_S_S1x32 : S_.BroadcastsInDim S1x32 (![] : Fin 0 → Fin S1x32.rank)
  shapeCasts_S16x32_S16x8x4 : S16x32.ShapeCasts S16x8x4
  reducesTo_S16x8x4_S16x8_d2 : S16x8x4.ReducesTo [2] S16x8
  bcast_S_S16x8 : S_.BroadcastsInDim S16x8 (![] : Fin 0 → Fin S16x8.rank)
  shapeCasts_S8_S1x8x1 : S8.ShapeCasts S1x8x1
  bcast_S16x8_S16x8x1_0_1 : S16x8.BroadcastsInDim S16x8x1 (![0, 1] : Fin 2 → Fin S16x8x1.rank)
  bcast_S1x8x1_S16x8x1_0_1_2 : S1x8x1.BroadcastsInDim S16x8x1 (![0, 1, 2] : Fin 3 → Fin S16x8x1.rank)
  shapeCasts_S32_S1x8x4 : S32.ShapeCasts S1x8x4
  bcast_S16x8x1_S16x8x4_0_1_2 : S16x8x1.BroadcastsInDim S16x8x4 (![0, 1, 2] : Fin 3 → Fin S16x8x4.rank)
  bcast_S1x8x4_S16x8x4_0_1_2 : S1x8x4.BroadcastsInDim S16x8x4 (![0, 1, 2] : Fin 3 → Fin S16x8x4.rank)
  shapeCasts_S16x8x4_S512x1 : S16x8x4.ShapeCasts S512x1
  bcast_S1x8x1_S16x8x4_0_1_2 : S1x8x1.BroadcastsInDim S16x8x4 (![0, 1, 2] : Fin 3 → Fin S16x8x4.rank)
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  broadcasts_S256x1_S256x4096 : S256x1.Broadcasts S256x4096
  shapeCasts_S512x16384_S16x32x16x32x32 : S512x16384.ShapeCasts S16x32x16x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S512x16384.size a
  hwx0_0 : ∀ i : grid0.Coords, EltTy.bits .f32 = 32 ∨ (Rect.block (s := S512x16384) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S512x128.size a
  hwx0_1 : ∀ i : grid0.Coords, EltTy.bits .f32 = 32 ∨ (Rect.block (s := S512x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S512x128.size a
  hwx0_2 : ∀ i : grid0.Coords, EltTy.bits .f32 = 32 ∨ (Rect.block (s := S512x128) S256x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1.size a ≤ S512x1.size a
  hwx1_0 : ∀ i : grid1.Coords, EltTy.bits .f32 = 32 ∨ (Rect.block (s := S512x1) S256x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S512x1.size a
  hwx1_1 : ∀ i : grid1.Coords, EltTy.bits .f32 = 32 ∨ (Rect.block (s := S512x1) S256x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S512x16384.size a
  hwx1_2 : ∀ i : grid1.Coords, EltTy.bits .f32 = 32 ∨ (Rect.block (s := S512x16384) S256x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S512x16384.size a
  hwx1_3 : ∀ i : grid1.Coords, EltTy.bits .f32 = 32 ∨ (Rect.block (s := S512x16384) S256x4096.size (cc1_transform_3 i) (hinb1_3 i)).WholeWords (EltTy.packing .f32)

variable [Facts₀]

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S256x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v71) S256x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v81) S256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v82) S256x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.Spec.lean ====
/-
  The two-stage normalisation as one function of the argument arrays, over the extended reals.

  Stage one normalises each channel over the batch and the spatial positions; stage two normalises each
  (sample, group) over the group's four channels and the spatial positions, with the stage-one output's
  moments derived from the raw moments; a per-group scale and shift follow. With a1 n k and a2 n k the sum
  and the sum of squares of sample n, channel k of one group over its 16384 spatial positions:
    mean_k = (sum_n a1 n k) / 2^18,  a_k = rsqrt (max ((sum_n a2 n k) / 2^18 - mean_k^2) 0 + eps),  b_k = (0 - mean_k) a_k,
    sumy n k = a_k a1 n k + b_k 2^14,   ssqy n k = a_k a_k a2 n k + 2 a_k b_k a1 n k + b_k b_k 2^14,
    meang n = (sum_k sumy n k) / 2^16,  inv n = rsqrt (max ((sum_k ssqy n k) / 2^16 - meang n ^2) 0 + eps),
    out = (w inv n a_k) x + (w inv n (b_k - meang n) + b).
  The division by a power of two is written as the product with its reciprocal, the form the kernel uses;
  on the extended reals the quotient by a nonzero real is that product at every argument (div_pow18, div_pow16).
-/
import Idealize.ShloMosaic.PureOps.Ideal
import Idealize.ShloMosaic.Lib.ValueIdx

noncomputable section

namespace Cert.Spec

open Idealize.ShloMosaic Idealize.ShloMosaic.ValueIdx

abbrev X5 : Shape := ⟨5, ![16, 32, 16, 32, 32]⟩
abbrev W8 : Shape := ⟨1, ![8]⟩

/-! ## The constants, as the programs spell them -/

abbrev z0 : EReal := Ideal.ofBits .f32 0x00000000#32
abbrev c18 : EReal := Ideal.ofBits .f32 0x36800000#32
abbrev c16 : EReal := Ideal.ofBits .f32 0x37800000#32
abbrev eps : EReal := Ideal.ofBits .f32 0x3727C5AC#32
abbrev sTot : EReal := Ideal.ofBits .f32 0x46800000#32
abbrev two : EReal := Ideal.ofBits .f32 0x40000000#32

theorem z0_eq : z0 = 0 := by simp [Ideal.ofBits, Ideal.ieee]

theorem c18_eq : c18 = ((1 / 262144 : ℝ) : EReal) := by
  simp [Ideal.ofBits, Ideal.ieee, -EReal.coe_mul]; norm_num
theorem c16_eq : c16 = ((1 / 65536 : ℝ) : EReal) := by
  simp [Ideal.ofBits, Ideal.ieee, -EReal.coe_mul]; norm_num
theorem pow18_eq : Ideal.ofBits .f32 0x48800000#32 = ((262144 : ℝ) : EReal) := by
  simp [Ideal.ofBits, Ideal.ieee, -EReal.coe_mul]; norm_num
theorem pow16_eq : Ideal.ofBits .f32 0x47800000#32 = ((65536 : ℝ) : EReal) := by
  simp [Ideal.ofBits, Ideal.ieee, -EReal.coe_mul]; norm_num

/-- The quotient by 2^18 is the product with 2^-18, at every extended real. -/
theorem div_pow18 (x : EReal) : Ideal.div x (Ideal.ofBits .f32 0x48800000#32) = x * c18 := by
  rw [pow18_eq, c18_eq, Ideal.div_coe (by norm_num : (262144 : ℝ) ≠ 0)]
/-- The quotient by 2^16 is the product with 2^-16, at every extended real. -/
theorem div_pow16 (x : EReal) : Ideal.div x (Ideal.ofBits .f32 0x47800000#32) = x * c16 := by
  rw [pow16_eq, c16_eq, Ideal.div_coe (by norm_num : (65536 : ℝ) ≠ 0)]

/-! ## The input as 128 × 128 spatial positions per (sample, channel) -/

/-- Entry (n, c) of the input at spatial position 128 p + q of its 16 × 32 × 32 volume. -/
def at4 (x : X5.Idx → EReal) (n : Fin 16) (c : Fin 32) (p q : Fin 128) : EReal :=
  x (ix5 n c ⟨p.val / 8, by have := p.isLt; omega⟩ ⟨(p.val % 8) * 4 + q.val / 32, by have := q.isLt; omega⟩
    ⟨q.val % 32, by omega⟩)

/-- Channel k of group g. -/
def chan (g : Fin 8) (k : Fin 4) : Fin 32 := ⟨g.val * 4 + k.val, by have := g.isLt; have := k.isLt; omega⟩

/-- The raw moments of sample n, channel k of group g. -/
def s1 (x : X5.Idx → EReal) (g : Fin 8) (n : Fin 16) (k : Fin 4) : EReal :=
  ∑ p : Fin 128, ∑ q : Fin 128, at4 x n (chan g k) p q
def s2 (x : X5.Idx → EReal) (g : Fin 8) (n : Fin 16) (k : Fin 4) : EReal :=
  ∑ p : Fin 128, ∑ q : Fin 128, at4 x n (chan g k) p q * at4 x n (chan g k) p q

/-! ## One group's chain, from its raw moments -/

section chain
variable (a1 a2 : Fin 16 → Fin 4 → EReal) (w b : EReal)

def meanc (k : Fin 4) : EReal := (∑ n : Fin 16, a1 n k) * c18
def ac (k : Fin 4) : EReal :=
  Ideal.rsqrt (max ((∑ n : Fin 16, a2 n k) * c18 - meanc a1 k * meanc a1 k) z0 + eps)
def bc (k : Fin 4) : EReal := (z0 - meanc a1 k) * ac a1 a2 k
def sumy (n : Fin 16) (k : Fin 4) : EReal := ac a1 a2 k * a1 n k + bc a1 a2 k * sTot
def ssqy (n : Fin 16) (k : Fin 4) : EReal :=
  ac a1 a2 k * ac a1 a2 k * a2 n k + two * ac a1 a2 k * bc a1 a2 k * a1 n k + bc a1 a2 k * bc a1 a2 k * sTot
def meang (n : Fin 16) : EReal := (∑ k : Fin 4, sumy a1 a2 n k) * c16
def invg (n : Fin 16) : EReal :=
  Ideal.rsqrt (max ((∑ k : Fin 4, ssqy a1 a2 n k) * c16 - meang a1 a2 n * meang a1 a2 n) z0 + eps)
def arow (n : Fin 16) (k : Fin 4) : EReal := w * invg a1 a2 n * ac a1 a2 k
def brow (n : Fin 16) (k : Fin 4) : EReal := w * invg a1 a2 n * (bc a1 a2 k - meang a1 a2 n) + b

end chain

/-! ## The result array -/

/-- The group of channel c, and its place in the group. -/
def grp (c : Fin 32) : Fin 8 := ⟨c.val / 4, by have := c.isLt; omega⟩
def sub (c : Fin 32) : Fin 4 := ⟨c.val % 4, by omega⟩

/-- The normalised array: entry (n, c, ·) is the input's entry scaled and shifted by its row's pair. -/
def G (x : X5.Idx → EReal) (wv bv : W8.Idx → EReal) : X5.Idx → EReal := fun i =>
  arow (s1 x (grp (i 1))) (s2 x (grp (i 1))) (wv (ix1 (grp (i 1)))) (i 0) (sub (i 1)) * x i
    + brow (s1 x (grp (i 1))) (s2 x (grp (i 1))) (wv (ix1 (grp (i 1)))) (bv (ix1 (grp (i 1)))) (i 0) (sub (i 1))

/-! ## A sum over 128 positions in four bands of 32 -/

theorem sum_bands {M : Type*} [AddCommMonoid M] (f : Fin 128 → M) :
    ∑ p : Fin 128, f p = ∑ j : Fin 4, ∑ kk : Fin 32, f ⟨j.val * 32 + kk.val, by have := j.isLt; have := kk.isLt; omega⟩ := by
  rw [← (finProdFinEquiv (m := 4) (n := 32)).sum_comp f, Fintype.sum_prod_type]
  refine Finset.sum_congr rfl fun j _ => Finset.sum_congr rfl fun kk _ => congrArg f (Fin.ext ?_)
  show kk.val + 32 * j.val = j.val * 32 + kk.val
  omega

end Cert.Spec

end
-- ==== Proof.Layout5.lean ====
/-
  Reads of the group-norm kernel's rank-5 layout operations at an index, over literal shapes.

  The kernel keeps every reduction's result as a rank-5 array with unit axes: a lane sum over the two
  spatial axes of a [16,1,4,128,128] block lands in [16,1,4] and is cast to [16,1,4,1,1]; a sum over the
  batch axis lands in [1,4,1,1] and is cast to [1,1,4,1,1]; a sum over the channel axis lands in
  [16,1,1,1] and is cast to [16,1,1,1,1]; and each is broadcast back along the axes it lost. Each lemma
  says which entry of the operand one entry of the result reads.
-/
import Idealize.ShloMosaic.Lib.Pipeline.Value
import Idealize.ShloMosaic.Lib.ValueIdx
import Idealize.ShloMosaic.PureOps.Ideal.Laws

noncomputable section

namespace Cert.Layout5

open Idealize.ShloMosaic Idealize.ShloMosaic.ValueIdx

abbrev B5 : Shape := ⟨5, ![16, 1, 4, 128, 128]⟩
abbrev R3 : Shape := ⟨3, ![16, 1, 4]⟩
abbrev C5 : Shape := ⟨5, ![16, 1, 4, 1, 1]⟩
abbrev N4 : Shape := ⟨4, ![1, 4, 1, 1]⟩
abbrev N5 : Shape := ⟨5, ![1, 1, 4, 1, 1]⟩
abbrev G4 : Shape := ⟨4, ![16, 1, 1, 1]⟩
abbrev G5 : Shape := ⟨5, ![16, 1, 1, 1, 1]⟩
abbrev U5 : Shape := ⟨5, ![1, 1, 1, 1, 1]⟩

variable {α : Type}

/-- [16,1,4] cast to [16,1,4,1,1]: the same three leading coordinates. -/
theorem cast_R3_C5 (x : R3.Idx → α) (h : R3.ShapeCasts C5) (n : Fin 16) (z : Fin 1) (k : Fin 4) (u v : Fin 1) :
    shapeCast C5 x h (ix5 n z k u v) = x (ix3 n z k) :=
  shapeCast_apply x h _ _ (by
    rw [Shape.rowMajor_val_three, Shape.rowMajor_val_five]
    have hu := u.isLt; have hv := v.isLt
    show ((n.val * 1 + z.val) * 4 + k.val) = ((((n.val * 1 + z.val) * 4 + k.val) * 1 + u.val) * 1 + v.val)
    omega)

/-- [1,4,1,1] cast to [1,1,4,1,1]: the channel coordinate moves from axis 1 to axis 2. -/
theorem cast_N4_N5 (x : N4.Idx → α) (h : N4.ShapeCasts N5) (a b : Fin 1) (k : Fin 4) (u v : Fin 1) :
    shapeCast N5 x h (ix5 a b k u v) = x (ix4 0 k 0 0) :=
  shapeCast_apply x h _ _ (by
    rw [Shape.rowMajor_val_four, Shape.rowMajor_val_five]
    have ha := a.isLt; have hb := b.isLt; have hu := u.isLt; have hv := v.isLt
    show (((0 * 4 + k.val) * 1 + 0) * 1 + 0) = ((((a.val * 1 + b.val) * 4 + k.val) * 1 + u.val) * 1 + v.val)
    omega)

/-- [16,1,1,1] cast to [16,1,1,1,1]: the batch coordinate. -/
theorem cast_G4_G5 (x : G4.Idx → α) (h : G4.ShapeCasts G5) (n : Fin 16) (a b u v : Fin 1) :
    shapeCast G5 x h (ix5 n a b u v) = x (ix4 n 0 0 0) :=
  shapeCast_apply x h _ _ (by
    rw [Shape.rowMajor_val_four, Shape.rowMajor_val_five]
    have ha := a.isLt; have hb := b.isLt; have hu := u.isLt; have hv := v.isLt
    show (((n.val * 1 + 0) * 1 + 0) * 1 + 0) = ((((n.val * 1 + a.val) * 1 + b.val) * 1 + u.val) * 1 + v.val)
    omega)

/-- A per-channel row [1,1,4,1,1] repeated over the batch axis. -/
theorem bcast_N5_C5 (x : N5.Idx → α) (h : N5.Broadcasts C5) (n : Fin 16) (z : Fin 1) (k : Fin 4) (u v : Fin 1) :
    broadcastTo C5 x h (ix5 n z k u v) = x (ix5 0 0 k 0 0) :=
  broadcastTo_apply x h _ _ (fun a => by
    match a with
    | ⟨0, _⟩ => rfl
    | ⟨1, _⟩ => rfl
    | ⟨2, _⟩ => rfl
    | ⟨3, _⟩ => rfl
    | ⟨4, _⟩ => rfl)

/-- A per-sample column [16,1,1,1,1] repeated over the channel axis. -/
theorem bcast_G5_C5 (x : G5.Idx → α) (h : G5.Broadcasts C5) (n : Fin 16) (z : Fin 1) (k : Fin 4) (u v : Fin 1) :
    broadcastTo C5 x h (ix5 n z k u v) = x (ix5 n 0 0 0 0) :=
  broadcastTo_apply x h _ _ (fun a => by
    match a with
    | ⟨0, _⟩ => rfl
    | ⟨1, _⟩ => rfl
    | ⟨2, _⟩ => rfl
    | ⟨3, _⟩ => rfl
    | ⟨4, _⟩ => rfl)

/-- A per-(sample, channel) value [16,1,4,1,1] repeated over the two spatial axes. -/
theorem bcast_C5_B5 (x : C5.Idx → α) (h : C5.Broadcasts B5) (n : Fin 16) (z : Fin 1) (k : Fin 4) (p q : Fin 128) :
    broadcastTo B5 x h (ix5 n z k p q) = x (ix5 n 0 k 0 0) :=
  broadcastTo_apply x h _ _ (fun a => by
    match a with
    | ⟨0, _⟩ => rfl
    | ⟨1, _⟩ => rfl
    | ⟨2, _⟩ => rfl
    | ⟨3, _⟩ => rfl
    | ⟨4, _⟩ => rfl)

/-! ## The three sums -/

/-- The sum over the batch axis of a [16,1,4,1,1] array, per channel. -/
theorem sum_batch (src : FVec Ideal C5 .f32) (h : C5.Reduces [0] N4) (hφ : FKind.Formats .f32)
    (hacc : (0x00000000#32 : BitVec 32) = 0x00000000#32) (a : Fin 1) (k : Fin 4) (u v : Fin 1) :
    multiReduction .add [0] N4 src 0x00000000#32 h hφ hacc (ix4 a k u v) = ∑ n : Fin 16, src (ix5 n 0 k 0 0) := by
  refine (Ideal.multiReduction_add_single src 0x00000000#32 h hφ hacc (ix4 a k u v)).trans ?_
  refine Finset.sum_congr rfl fun n _ => congrArg src ?_
  funext c
  apply Fin.ext
  match c with
  | ⟨0, _⟩ => rfl
  | ⟨1, _⟩ => show (a : Nat) = 0; omega
  | ⟨2, _⟩ => rfl
  | ⟨3, _⟩ => show (u : Nat) = 0; omega
  | ⟨4, _⟩ => show (v : Nat) = 0; omega

/-- The sum over the channel axis of a [16,1,4,1,1] array, per sample. -/
theorem sum_chan (src : FVec Ideal C5 .f32) (h : C5.Reduces [2] G4) (hφ : FKind.Formats .f32)
    (hacc : (0x00000000#32 : BitVec 32) = 0x00000000#32) (n : Fin 16) (a u v : Fin 1) :
    multiReduction .add [2] G4 src 0x00000000#32 h hφ hacc (ix4 n a u v) = ∑ k : Fin 4, src (ix5 n 0 k 0 0) := by
  refine (Ideal.multiReduction_add_single src 0x00000000#32 h hφ hacc (ix4 n a u v)).trans ?_
  refine Finset.sum_congr rfl fun k _ => congrArg src ?_
  funext c
  apply Fin.ext
  match c with
  | ⟨0, _⟩ => rfl
  | ⟨1, _⟩ => show (a : Nat) = 0; omega
  | ⟨2, _⟩ => rfl
  | ⟨3, _⟩ => show (u : Nat) = 0; omega
  | ⟨4, _⟩ => show (v : Nat) = 0; omega

/-- The indices of a [16,1,4,128,128] block that drop to (n, z, k) are the 128 × 128 spatial positions over it. -/
def laneEmb (n : Fin 16) (z : Fin 1) (k : Fin 4) : Fin 128 × Fin 128 ↪ B5.Idx :=
  ⟨fun pq => ix5 n z k pq.1 pq.2, fun a b hab => by
    have h3 := congrFun hab 3; have h4 := congrFun hab 4
    exact Prod.ext h3 h4⟩

theorem filter_lane (h : B5.Reduces [3, 4] R3) (n : Fin 16) (z : Fin 1) (k : Fin 4) :
    Finset.univ.filter (fun i : B5.Idx => h.drop i = ix3 n z k) = Finset.univ.map (laneEmb n z k) := by
  ext i
  simp only [Finset.mem_filter, Finset.mem_univ, true_and, Finset.mem_map, laneEmb, Function.Embedding.coeFn_mk]
  constructor
  · intro hd
    refine ⟨(i 3, i 4), ?_⟩
    have e0 : (i 0 : Nat) = n := congrArg Fin.val (congrFun hd 0)
    have e1 : (i 1 : Nat) = z := congrArg Fin.val (congrFun hd 1)
    have e2 : (i 2 : Nat) = k := congrArg Fin.val (congrFun hd 2)
    funext c
    apply Fin.ext
    match c with
    | ⟨0, _⟩ => exact e0.symm
    | ⟨1, _⟩ => exact e1.symm
    | ⟨2, _⟩ => exact e2.symm
    | ⟨3, _⟩ => rfl
    | ⟨4, _⟩ => rfl
  · rintro ⟨pq, rfl⟩
    funext b
    apply Fin.ext
    match b with
    | ⟨0, _⟩ => rfl
    | ⟨1, _⟩ => rfl
    | ⟨2, _⟩ => rfl

/-- The lane sum: a [16,1,4,128,128] block summed over its two spatial axes, per (sample, channel). -/
theorem sum_lanes (src : FVec Ideal B5 .f32) (h : B5.Reduces [3, 4] R3) (hφ : FKind.Formats .f32)
    (hacc : (0x00000000#32 : BitVec 32) = 0x00000000#32) (n : Fin 16) (z : Fin 1) (k : Fin 4) :
    multiReduction .add [3, 4] R3 src 0x00000000#32 h hφ hacc (ix3 n z k)
      = ∑ p : Fin 128, ∑ q : Fin 128, src (ix5 n z k p q) := by
  show Ideal.reduceAdd h src (ix3 n z k) = _
  unfold Ideal.reduceAdd
  rw [filter_lane, Finset.sum_map, ← Finset.univ_product_univ, Finset.sum_product]
  rfl

end Cert.Layout5

end
-- ==== Proof.KernelPay.lean ====
/-
  The stored value of the group kernel's body, read at one index.

  The body loads a [16,1,4,128,128] block x (one group: 16 samples, 4 channels, 128 × 128 spatial positions),
  the group's scale w and shift b, and stores one block. With a1 n k and a2 n k the sum and the sum of
  squares of x over the spatial positions of sample n, channel k, every intermediate of the body is one
  link of the group chain of the specification, read at the coordinates it depends on:
  the channel mean, the channel's inverse deviation a_k and offset b_k, the derived moments of the
  stage-one output, the group mean and inverse deviation per sample, and the final scale and shift per
  (sample, channel). The stored value at (n, ·, k, p, q) is arow n k * x (n, ·, k, p, q) + brow n k.
-/
import proofs.«167197_g2000702654276885_pallasbulk_1018_2_alg».proof.Proof.Gen.KernelIdeal.Frame
import proofs.«167197_g2000702654276885_pallasbulk_1018_2_alg».proof.Proof.Spec
import proofs.«167197_g2000702654276885_pallasbulk_1018_2_alg».proof.Proof.Layout5

noncomputable section

namespace Cert.KernelIdeal.KValue

open Cert.KernelIdeal Cert.KernelIdeal.Gen Idealize.ShloMosaic Idealize.ShloMosaic.ValueIdx
open Cert.Layout5

/-- The sum of a block over the spatial positions of sample n, channel k. -/
def a1 (x : B5.Idx → EReal) (n : Fin 16) (k : Fin 4) : EReal :=
  ∑ p : Fin 128, ∑ q : Fin 128, x (ix5 n 0 k p q)
/-- The sum of its squares. -/
def a2 (x : B5.Idx → EReal) (n : Fin 16) (k : Fin 4) : EReal :=
  ∑ p : Fin 128, ∑ q : Fin 128, x (ix5 n 0 k p q) * x (ix5 n 0 k p q)

/-- A [1,1,1,1,1] array has one index. -/
theorem u5_eq (i j : U5.Idx) : i = j := by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => exact Subsingleton.elim (α := Fin 1) _ _
  | ⟨4, _⟩ => exact Subsingleton.elim (α := Fin 1) _ _

section payloads
variable (x : Vec Ideal S16x1x4x128x128 .f32)

/-- The loaded block, cast to its own shape. -/
theorem pay1_eq : k0_pay1 x = x := by
  unfold k0_pay1
  exact shapeCast_self x _

/-- The lane sum of the block. -/
theorem pay2_at (n : Fin 16) (z : Fin 1) (k : Fin 4) (u v : Fin 1) : k0_pay2 x (ix5 n z k u v) = a1 x n k := by
  unfold k0_pay2
  refine (cast_R3_C5 _ _ n z k u v).trans ?_
  refine (sum_lanes _ _ _ _ n z k).trans ?_
  obtain rfl : z = 0 := Subsingleton.elim _ _
  rw [pay1_eq]
  rfl

/-- The lane sum of its squares. -/
theorem pay3_at (n : Fin 16) (z : Fin 1) (k : Fin 4) (u v : Fin 1) : k0_pay3 x (ix5 n z k u v) = a2 x n k := by
  unfold k0_pay3
  refine (cast_R3_C5 _ _ n z k u v).trans ?_
  refine (sum_lanes _ _ _ _ n z k).trans ?_
  obtain rfl : z = 0 := Subsingleton.elim _ _
  rw [pay1_eq]
  rfl

/-- The channel mean. -/
theorem pay4_at (a b : Fin 1) (k : Fin 4) (u v : Fin 1) : k0_pay4 x (ix5 a b k u v) = Spec.meanc (a1 x) k := by
  unfold k0_pay4 Spec.meanc
  refine congrArg (fun y : EReal => y * Spec.c18) ?_
  refine (cast_N4_N5 _ _ a b k u v).trans ?_
  refine (sum_batch _ _ _ _ 0 k 0 0).trans ?_
  exact Finset.sum_congr rfl fun n _ => pay2_at x n 0 k 0 0

/-- The channel's inverse deviation. -/
theorem pay5_at (a b : Fin 1) (k : Fin 4) (u v : Fin 1) : k0_pay5 x (ix5 a b k u v) = Spec.ac (a1 x) (a2 x) k := by
  unfold k0_pay5 Spec.ac
  refine congrArg Ideal.rsqrt ?_
  refine congrArg (fun y : EReal => y + Spec.eps) ?_
  refine congrArg (fun y : EReal => max y Spec.z0) ?_
  refine congrArg₂ (fun y y' : EReal => y - y') ?_ ?_
  · refine congrArg (fun y : EReal => y * Spec.c18) ?_
    refine (cast_N4_N5 _ _ a b k u v).trans ?_
    refine (sum_batch _ _ _ _ 0 k 0 0).trans ?_
    exact Finset.sum_congr rfl fun n _ => pay3_at x n 0 k 0 0
  · exact congrArg₂ (fun y y' : EReal => y * y') (pay4_at x a b k u v) (pay4_at x a b k u v)

/-- The channel's offset. -/
theorem pay6_at (a b : Fin 1) (k : Fin 4) (u v : Fin 1) : k0_pay6 x (ix5 a b k u v) = Spec.bc (a1 x) (a2 x) k := by
  unfold k0_pay6 Spec.bc
  exact congrArg₂ (fun y y' : EReal => (Spec.z0 - y) * y') (pay4_at x a b k u v) (pay5_at x a b k u v)

/-- The sum of the stage-one output over the spatial positions, from the raw sum. -/
theorem pay7_at (n : Fin 16) (z : Fin 1) (k : Fin 4) (u v : Fin 1) :
    k0_pay7 x (ix5 n z k u v) = Spec.sumy (a1 x) (a2 x) n k := by
  unfold k0_pay7 Spec.sumy
  refine congrArg₂ (fun y y' : EReal => y + y') ?_ ?_
  · refine congrArg₂ (fun y y' : EReal => y * y') ?_ (pay2_at x n z k u v)
    exact (bcast_N5_C5 _ _ n z k u v).trans (pay5_at x 0 0 k 0 0)
  · refine (bcast_N5_C5 _ _ n z k u v).trans ?_
    exact congrArg (fun y : EReal => y * Spec.sTot) (pay6_at x 0 0 k 0 0)

/-- The first two terms of the sum of squares of the stage-one output. -/
theorem pay8_at (n : Fin 16) (z : Fin 1) (k : Fin 4) (u v : Fin 1) :
    k0_pay8 x (ix5 n z k u v)
      = Spec.ac (a1 x) (a2 x) k * Spec.ac (a1 x) (a2 x) k * a2 x n k
        + Spec.two * Spec.ac (a1 x) (a2 x) k * Spec.bc (a1 x) (a2 x) k * a1 x n k := by
  unfold k0_pay8
  refine congrArg₂ (fun y y' : EReal => y + y') ?_ ?_
  · refine congrArg₂ (fun y y' : EReal => y * y') ?_ (pay3_at x n z k u v)
    refine (bcast_N5_C5 _ _ n z k u v).trans ?_
    exact congrArg₂ (fun y y' : EReal => y * y') (pay5_at x 0 0 k 0 0) (pay5_at x 0 0 k 0 0)
  · refine congrArg₂ (fun y y' : EReal => y * y') ?_ (pay2_at x n z k u v)
    refine (bcast_N5_C5 _ _ n z k u v).trans ?_
    exact congrArg₂ (fun y y' : EReal => Spec.two * y * y') (pay5_at x 0 0 k 0 0) (pay6_at x 0 0 k 0 0)

/-- The square of the channel's offset. -/
theorem pay9_at (a b : Fin 1) (k : Fin 4) (u v : Fin 1) :
    k0_pay9 x (ix5 a b k u v) = Spec.bc (a1 x) (a2 x) k * Spec.bc (a1 x) (a2 x) k := by
  unfold k0_pay9
  exact congrArg₂ (fun y y' : EReal => y * y') (pay6_at x a b k u v) (pay6_at x a b k u v)

/-- The number of spatial positions, as the body spells it. -/
theorem pay10_at (a b : Fin 1) (k : Fin 4) (u v : Fin 1) : k0_pay10 (F := Ideal) (ix5 a b k u v) = Spec.sTot := rfl

end payloads

/-! ## The second half of the body: the group statistics and the stored value -/

/-- The group mean per sample, from per-(sample, channel) sums. -/
def gmean (s : Fin 16 → Fin 4 → EReal) (n : Fin 16) : EReal := (∑ k : Fin 4, s n k) * Spec.c16
/-- The group's inverse deviation per sample, from the sums and the sums of squares. -/
def ginv (s qq : Fin 16 → Fin 4 → EReal) (n : Fin 16) : EReal :=
  Ideal.rsqrt (max ((∑ k : Fin 4, qq n k) * Spec.c16 - gmean s n * gmean s n) Spec.z0 + Spec.eps)

/-- The sum over the channel axis, cast to rank 5 and scaled by 2^-16, is the group mean. -/
theorem gmean_at (s : FVec Ideal C5 .f32) (h : C5.Reduces [2] G4) (hc : G4.ShapeCasts G5) (hφ : FKind.Formats .f32)
    (hacc : (0x00000000#32 : BitVec 32) = 0x00000000#32) (n : Fin 16) (a b u v : Fin 1) :
    mulf (shapeCast G5 (multiReduction .add [2] G4 s 0x00000000#32 h hφ hacc) hc)
        (broadcast G5 (Scalar.ofBits (F := Ideal) .f32 0x37800000#32)) (ix5 n a b u v)
      = gmean (fun n k => s (ix5 n 0 k 0 0)) n := by
  unfold gmean
  refine congrArg (fun y : EReal => y * Spec.c16) ?_
  refine (cast_G4_G5 _ _ n a b u v).trans ?_
  exact sum_chan _ _ _ _ n 0 0 0

/-- The stored value at one index, from the reads of the first half's results. -/
theorem pay11_at (v1 : FVec Ideal S16x1x4x128x128 .f32) (v21 v24 : FVec Ideal S1x1x4x1x1 .f32)
    (v30 v39 : FVec Ideal S16x1x4x1x1 .f32) (v40 v41 : FVec Ideal S1x1x4x1x1 .f32) (v60 v72 : Vec Ideal S1x1x1x1x1 .f32)
    (n : Fin 16) (z : Fin 1) (k : Fin 4) (p q : Fin 128) :
    k0_pay11 v1 v21 v24 v30 v39 v40 v41 v60 v72 (ix5 n z k p q)
      = v60 (ix5 0 0 0 0 0)
            * ginv (fun n k => v30 (ix5 n 0 k 0 0))
                (fun n k => v39 (ix5 n 0 k 0 0) + v40 (ix5 0 0 k 0 0) * v41 (ix5 0 0 k 0 0)) n
            * v21 (ix5 0 0 k 0 0) * v1 (ix5 n z k p q)
        + (v60 (ix5 0 0 0 0 0)
            * ginv (fun n k => v30 (ix5 n 0 k 0 0))
                (fun n k => v39 (ix5 n 0 k 0 0) + v40 (ix5 0 0 k 0 0) * v41 (ix5 0 0 k 0 0)) n
            * (v24 (ix5 0 0 k 0 0) - gmean (fun n k => v30 (ix5 n 0 k 0 0)) n)
          + v72 (ix5 0 0 0 0 0)) := by
  unfold k0_pay11
  have hw : extractAt ![0, 0, 0, 0, 0] v60 inpos_S1x1x1x1x1_p0_0_0_0_0 = v60 (ix5 0 0 0 0 0) := congrArg v60 (u5_eq _ _)
  have hb : extractAt ![0, 0, 0, 0, 0] v72 inpos_S1x1x1x1x1_p0_0_0_0_0 = v72 (ix5 0 0 0 0 0) := congrArg v72 (u5_eq _ _)
  refine congrArg₂ (fun y y' : EReal => y + y') ?_ ?_
  · refine congrArg (fun y : EReal => y * v1 (ix5 n z k p q)) ?_
    refine (bcast_C5_B5 _ _ n z k p q).trans ?_
    refine congrArg₂ (fun y y' : EReal => y * y') ?_ (bcast_N5_C5 _ _ n 0 k 0 0)
    refine (bcast_G5_C5 _ _ n 0 k 0 0).trans ?_
    refine congrArg₂ (fun y y' : EReal => y * y') hw ?_
    unfold ginv
    refine congrArg Ideal.rsqrt ?_
    refine congrArg (fun y : EReal => y + Spec.eps) ?_
    refine congrArg (fun y : EReal => max y Spec.z0) ?_
    refine congrArg₂ (fun y y' : EReal => y - y') ?_ ?_
    · refine congrArg (fun y : EReal => y * Spec.c16) ?_
      refine (cast_G4_G5 _ _ n 0 0 0 0).trans ?_
      refine (sum_chan _ _ _ _ n 0 0 0).trans ?_
      refine Finset.sum_congr rfl fun k' _ => ?_
      refine congrArg (fun y : EReal => v39 (ix5 n 0 k' 0 0) + y) ?_
      exact bcast_N5_C5 _ _ n 0 k' 0 0
    · exact congrArg₂ (fun y y' : EReal => y * y') (gmean_at _ _ _ _ _ n 0 0 0 0) (gmean_at _ _ _ _ _ n 0 0 0 0)
  · refine (bcast_C5_B5 _ _ n z k p q).trans ?_
    refine congrArg₂ (fun y y' : EReal => y + y') ?_ hb
    refine congrArg₂ (fun y y' : EReal => y * y') ?_ ?_
    · refine (bcast_G5_C5 _ _ n 0 k 0 0).trans ?_
      refine congrArg₂ (fun y y' : EReal => y * y') hw ?_
      unfold ginv
      refine congrArg Ideal.rsqrt ?_
      refine congrArg (fun y : EReal => y + Spec.eps) ?_
      refine congrArg (fun y : EReal => max y Spec.z0) ?_
      refine congrArg₂ (fun y y' : EReal => y - y') ?_ ?_
      · refine congrArg (fun y : EReal => y * Spec.c16) ?_
        refine (cast_G4_G5 _ _ n 0 0 0 0).trans ?_
        refine (sum_chan _ _ _ _ n 0 0 0).trans ?_
        refine Finset.sum_congr rfl fun k' _ => ?_
        refine congrArg (fun y : EReal => v39 (ix5 n 0 k' 0 0) + y) ?_
        exact bcast_N5_C5 _ _ n 0 k' 0 0
      · exact congrArg₂ (fun y y' : EReal => y * y') (gmean_at _ _ _ _ _ n 0 0 0 0) (gmean_at _ _ _ _ _ n 0 0 0 0)
    · refine congrArg₂ (fun y y' : EReal => y - y') (bcast_N5_C5 _ _ n 0 k 0 0) ?_
      exact (bcast_G5_C5 _ _ n 0 k 0 0).trans (gmean_at _ _ _ _ _ n 0 0 0 0)

/-! ## The whole body -/

theorem hz : (![0, 0, 0, 0, 0] : Fin 5 → Nat) = fun _ => 0 := funext fun a => by fin_cases a <;> rfl

/-- What the body stores, at one index: the row's scale times the loaded entry plus the row's shift. -/
theorem out_at (x0 x1 : Vec Ideal S1x1x1x1x1 .f32) (x2 : Vec Ideal S16x1x4x128x128 .f32)
    (n : Fin 16) (z : Fin 1) (k : Fin 4) (p q : Fin 128) :
    out0_3 x0 x1 x2 (ix5 n z k p q)
      = Spec.arow (a1 x2) (a2 x2) (x0 (ix5 0 0 0 0 0)) n k * x2 (ix5 n z k p q)
        + Spec.brow (a1 x2) (a2 x2) (x0 (ix5 0 0 0 0 0)) (x1 (ix5 0 0 0 0 0)) n k := by
  unfold out0_3
  rw [View.canon_unit_zero hz]
  simp only [View.ld_unit_zero (S := S16x1x4x128x128) hz, View.ld_unit_zero (S := S1x1x1x1x1) hz]
  refine (pay11_at _ _ _ _ _ _ _ _ _ n z k p q).trans ?_
  have hs : (fun n k => k0_pay7 x2 (ix5 n 0 k 0 0)) = Spec.sumy (a1 x2) (a2 x2) :=
    funext fun n => funext fun k => pay7_at x2 n 0 k 0 0
  have hq : (fun n k => k0_pay8 x2 (ix5 n 0 k 0 0) + k0_pay9 x2 (ix5 0 0 k 0 0) * k0_pay10 (F := Ideal) (ix5 0 0 k 0 0))
      = Spec.ssqy (a1 x2) (a2 x2) :=
    funext fun n => funext fun k => by rw [pay8_at, pay9_at, pay10_at]; rfl
  rw [hs, hq, pay5_at, pay6_at, pay1_eq]
  rfl

end Cert.KernelIdeal.KValue

end
-- ==== Proof.KernelValue.lean ====
/-
  From the body's stored block to the kernel's result array.

  The kernel runs over 8 grid points, one per group: at point t it loads group t's [16,1,4,128,128] block of the
  regrouped input (axis 1 of [16,8,4,128,128] is the group), the group's scale and shift, and writes back group
  t's block of the result. Every index of the result lies in the block of the point its group coordinate names,
  so the result array is one function of the regrouped input and the reshaped scale and shift. The regrouped
  input is the argument read at the same row-major position: entry (n, g, k, p, q) is sample n, channel 4 g + k,
  spatial position 128 p + q; and the final reshape reads the grouped result back at the argument's own index.
-/
import proofs.«167197_g2000702654276885_pallasbulk_1018_2_alg».proof.Proof.KernelPay
import Idealize.ShloMosaic.Lib.Pipeline.Value

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The result over the grouped layout -/

/-- The sum of group g's entries of a grouped array over the spatial positions of sample n, channel k. -/
def A1 (X : S16x8x4x128x128.Idx → EReal) (g : Fin 8) (n : Fin 16) (k : Fin 4) : EReal :=
  ∑ p : Fin 128, ∑ q : Fin 128, X (ix5 n g k p q)
/-- The sum of their squares. -/
def A2 (X : S16x8x4x128x128.Idx → EReal) (g : Fin 8) (n : Fin 16) (k : Fin 4) : EReal :=
  ∑ p : Fin 128, ∑ q : Fin 128, X (ix5 n g k p q) * X (ix5 n g k p q)

/-- One entry of the grouped result: the row's scale times the entry plus the row's shift. -/
def R (X : S16x8x4x128x128.Idx → EReal) (Wv Bv : S1x8x1x1x1.Idx → EReal)
    (n : Fin 16) (g : Fin 8) (k : Fin 4) (p q : Fin 128) : EReal :=
  Spec.arow (A1 X g) (A2 X g) (Wv (ix5 0 g 0 0 0)) n k * X (ix5 n g k p q)
    + Spec.brow (A1 X g) (A2 X g) (Wv (ix5 0 g 0 0 0)) (Bv (ix5 0 g 0 0 0)) n k
/-- The grouped result as an array. -/
def R5 (X : S16x8x4x128x128.Idx → EReal) (Wv Bv : S1x8x1x1x1.Idx → EReal) : S16x8x4x128x128.Idx → EReal :=
  fun i => R X Wv Bv (i 0) (i 1) (i 2) (i 3) (i 4)

/-! ## The grid: point t works on group t -/

/-- The group a grid point works on. -/
def pt (t : Fin cfg0.N) : Fin 8 := ⟨t.val, lt_of_lt_of_eq t.isLt N_0⟩

/-- The windows' index maps over the grid: every window's block index is the point on the group axis and zero
    elsewhere. -/
theorem idx_facts : ∀ t : Fin cfg0.N,
    (win0_0.index t (0 : Fin 5) = 0 ∧ win0_0.index t (1 : Fin 5) = t.val ∧ win0_0.index t (2 : Fin 5) = 0 ∧ win0_0.index t (3 : Fin 5) = 0 ∧ win0_0.index t (4 : Fin 5) = 0)
    ∧ (win0_1.index t (0 : Fin 5) = 0 ∧ win0_1.index t (1 : Fin 5) = t.val ∧ win0_1.index t (2 : Fin 5) = 0 ∧ win0_1.index t (3 : Fin 5) = 0 ∧ win0_1.index t (4 : Fin 5) = 0)
    ∧ (win0_2.index t (0 : Fin 5) = 0 ∧ win0_2.index t (1 : Fin 5) = t.val ∧ win0_2.index t (2 : Fin 5) = 0 ∧ win0_2.index t (3 : Fin 5) = 0 ∧ win0_2.index t (4 : Fin 5) = 0)
    ∧ (win0_3.index t (0 : Fin 5) = 0 ∧ win0_3.index t (1 : Fin 5) = t.val ∧ win0_3.index t (2 : Fin 5) = 0 ∧ win0_3.index t (3 : Fin 5) = 0 ∧ win0_3.index t (4 : Fin 5) = 0) :=
  (by decide +kernel : ∀ t : Fin grid0.N, _)

/-! ## The input blocks, read off the arrays -/

theorem blk0_at (c : Dev nD) (t : Fin cfg0.N) (y : S1x1x1x1x1.Idx) :
    iblk m c 0 t y = V m c main_v1 (ix5 0 (pt t) 0 0 0) := by
  obtain ⟨e0, e1, e2, e3, e4⟩ := (idx_facts t).1
  show V m c main_v1 (((cfg0.win 0).blk t).view.emb y) = V m c main_v1 (ix5 0 (pt t) 0 0 0)
  refine congrArg (V m c main_v1) ?_
  funext a; apply Fin.ext
  match a with
  | ⟨0, _⟩ => show win0_0.index t (0 : Fin 5) * 1 + 1 * (y 0).val = 0; have h : (y 0).val < 1 := (y 0).isLt; omega
  | ⟨1, _⟩ => show win0_0.index t (1 : Fin 5) * 1 + 1 * (y 1).val = t.val; have h : (y 1).val < 1 := (y 1).isLt; omega
  | ⟨2, _⟩ => show win0_0.index t (2 : Fin 5) * 1 + 1 * (y 2).val = 0; have h : (y 2).val < 1 := (y 2).isLt; omega
  | ⟨3, _⟩ => show win0_0.index t (3 : Fin 5) * 1 + 1 * (y 3).val = 0; have h : (y 3).val < 1 := (y 3).isLt; omega
  | ⟨4, _⟩ => show win0_0.index t (4 : Fin 5) * 1 + 1 * (y 4).val = 0; have h : (y 4).val < 1 := (y 4).isLt; omega

theorem blk1_at (c : Dev nD) (t : Fin cfg0.N) (y : S1x1x1x1x1.Idx) :
    iblk m c 1 t y = V m c main_v2 (ix5 0 (pt t) 0 0 0) := by
  obtain ⟨e0, e1, e2, e3, e4⟩ := (idx_facts t).2.1
  show V m c main_v2 (((cfg0.win 1).blk t).view.emb y) = V m c main_v2 (ix5 0 (pt t) 0 0 0)
  refine congrArg (V m c main_v2) ?_
  funext a; apply Fin.ext
  match a with
  | ⟨0, _⟩ => show win0_1.index t (0 : Fin 5) * 1 + 1 * (y 0).val = 0; have h : (y 0).val < 1 := (y 0).isLt; omega
  | ⟨1, _⟩ => show win0_1.index t (1 : Fin 5) * 1 + 1 * (y 1).val = t.val; have h : (y 1).val < 1 := (y 1).isLt; omega
  | ⟨2, _⟩ => show win0_1.index t (2 : Fin 5) * 1 + 1 * (y 2).val = 0; have h : (y 2).val < 1 := (y 2).isLt; omega
  | ⟨3, _⟩ => show win0_1.index t (3 : Fin 5) * 1 + 1 * (y 3).val = 0; have h : (y 3).val < 1 := (y 3).isLt; omega
  | ⟨4, _⟩ => show win0_1.index t (4 : Fin 5) * 1 + 1 * (y 4).val = 0; have h : (y 4).val < 1 := (y 4).isLt; omega

theorem blk2_at (c : Dev nD) (t : Fin cfg0.N) (n : Fin 16) (z : Fin 1) (k : Fin 4) (p q : Fin 128) :
    iblk m c 2 t (ix5 n z k p q) = V m c main_v0 (ix5 n (pt t) k p q) := by
  obtain ⟨e0, e1, e2, e3, e4⟩ := (idx_facts t).2.2.1
  show V m c main_v0 (((cfg0.win 2).blk t).view.emb (ix5 n z k p q)) = V m c main_v0 (ix5 n (pt t) k p q)
  refine congrArg (V m c main_v0) ?_
  funext a; apply Fin.ext
  match a with
  | ⟨0, _⟩ => show win0_2.index t (0 : Fin 5) * 16 + 1 * n.val = n.val; omega
  | ⟨1, _⟩ => show win0_2.index t (1 : Fin 5) * 1 + 1 * z.val = t.val; have h := z.isLt; omega
  | ⟨2, _⟩ => show win0_2.index t (2 : Fin 5) * 4 + 1 * k.val = k.val; omega
  | ⟨3, _⟩ => show win0_2.index t (3 : Fin 5) * 128 + 1 * p.val = p.val; omega
  | ⟨4, _⟩ => show win0_2.index t (4 : Fin 5) * 128 + 1 * q.val = q.val; omega

/-- Where an entry of the output block at point t sits in the result array. -/
theorem emb3_at (t : Fin cfg0.N) (n : Fin 16) (z : Fin 1) (k : Fin 4) (p q : Fin 128) :
    (((cfg0.win 3).blk t).view.emb (ix5 n z k p q) : S16x8x4x128x128.Idx) = ix5 n (pt t) k p q := by
  obtain ⟨e0, e1, e2, e3, e4⟩ := (idx_facts t).2.2.2
  funext a; apply Fin.ext
  match a with
  | ⟨0, _⟩ => show win0_3.index t (0 : Fin 5) * 16 + 1 * n.val = n.val; omega
  | ⟨1, _⟩ => show win0_3.index t (1 : Fin 5) * 1 + 1 * z.val = t.val; have h := z.isLt; omega
  | ⟨2, _⟩ => show win0_3.index t (2 : Fin 5) * 4 + 1 * k.val = k.val; omega
  | ⟨3, _⟩ => show win0_3.index t (3 : Fin 5) * 128 + 1 * p.val = p.val; omega
  | ⟨4, _⟩ => show win0_3.index t (4 : Fin 5) * 128 + 1 * q.val = q.val; omega

/-! ## What a point writes back -/

/-- Two blocks that agree at every coordinate tuple are equal. -/
theorem ext_B5 (f g : S16x1x4x128x128.Idx → EReal)
    (h : ∀ (n : Fin 16) (z : Fin 1) (k : Fin 4) (p q : Fin 128), f (ix5 n z k p q) = g (ix5 n z k p q)) : f = g :=
  funext fun y => (congrArg f (eq_ix5 y)).trans ((h _ _ _ _ _).trans (congrArg g (eq_ix5 y)).symm)

/-- Point t writes back block t of the grouped result. -/
theorem flushed_eq (c : Dev nD) (t : Fin cfg0.N) :
    (dats m 0 c).flushed 3 t
      = ((cfg0.win 3).blk t).view.read (Elt Ideal) (R5 (V m c main_v0) (V m c main_v1) (V m c main_v2)) := by
  show (cfg0.win 3).cut (grid0.coords t) ((dats m 0 c).after 3 t) = _
  rw [after0_3]
  refine ext_B5 _ _ fun n z k p q => ?_
  show out0_3 (iblk m c 0 t) (iblk m c 1 t) (iblk m c 2 t) (ix5 n z k p q)
      = R5 (V m c main_v0) (V m c main_v1) (V m c main_v2) (((cfg0.win 3).blk t).view.emb (ix5 n z k p q))
  refine (out_at _ _ _ n z k p q).trans ?_
  refine Eq.trans ?_ (congrArg (R5 (V m c main_v0) (V m c main_v1) (V m c main_v2)) (emb3_at t n z k p q)).symm
  have h1 : a1 (iblk m c 2 t) = A1 (V m c main_v0) (pt t) := funext fun n' => funext fun k' =>
    Finset.sum_congr rfl fun p' _ => Finset.sum_congr rfl fun q' _ => blk2_at m c t n' 0 k' p' q'
  have h2 : a2 (iblk m c 2 t) = A2 (V m c main_v0) (pt t) := funext fun n' => funext fun k' =>
    Finset.sum_congr rfl fun p' _ => Finset.sum_congr rfl fun q' _ =>
      congrArg₂ (fun y y' : EReal => y * y') (blk2_at m c t n' 0 k' p' q') (blk2_at m c t n' 0 k' p' q')
  rw [h1, h2, blk0_at m c t, blk1_at m c t, blk2_at m c t n z k p q]
  rfl

/-! ## The blocks cover the array -/

/-- An index of the array is in point t's block iff each coordinate is in the block's range on its axis. -/
theorem mem_blk (t : Fin cfg0.N) (i : S16x8x4x128x128.Idx) :
    i ∈ ((cfg0.win 3).blk t).view.set ↔ ∀ a : Fin 5, win0_3.index t a * S16x1x4x128x128.size a ≤ (i a).val
      ∧ (i a).val < win0_3.index t a * S16x1x4x128x128.size a + S16x1x4x128x128.size a := by
  show i ∈ ((View.whole main_v3).slice (win0_3.rect t)).set ↔ _
  rw [View.set_slice_whole, Rect.mem_set_unit]
  exact Iff.rfl

/-- Every index is in the block of the point its group coordinate names. -/
theorem cover (i : S16x8x4x128x128.Idx) :
    ∃ t : Fin cfg0.N, (cfg0.win 3).flush t = true ∧ i ∈ ((cfg0.win 3).blk t).view.set := by
  have h0 : (i 0).val < 16 := (i 0).isLt
  have h1 : (i 1).val < 8 := (i 1).isLt
  have h2 : (i 2).val < 4 := (i 2).isLt
  have h3 : (i 3).val < 128 := (i 3).isLt
  have h4 : (i 4).val < 128 := (i 4).isLt
  obtain ⟨t, ht⟩ : ∃ t : Fin cfg0.N, t.val = (i 1).val := ⟨⟨(i 1).val, lt_of_lt_of_eq h1 N_0.symm⟩, rfl⟩
  obtain ⟨e0, e1, e2, e3, e4⟩ := (idx_facts t).2.2.2
  refine ⟨t, flush0_3 t, ?_⟩
  rw [mem_blk]
  intro a
  match a with
  | ⟨0, _⟩ => show win0_3.index t (0 : Fin 5) * 16 ≤ (i 0).val ∧ (i 0).val < win0_3.index t (0 : Fin 5) * 16 + 16; omega
  | ⟨1, _⟩ => show win0_3.index t (1 : Fin 5) * 1 ≤ (i 1).val ∧ (i 1).val < win0_3.index t (1 : Fin 5) * 1 + 1; omega
  | ⟨2, _⟩ => show win0_3.index t (2 : Fin 5) * 4 ≤ (i 2).val ∧ (i 2).val < win0_3.index t (2 : Fin 5) * 4 + 4; omega
  | ⟨3, _⟩ => show win0_3.index t (3 : Fin 5) * 128 ≤ (i 3).val ∧ (i 3).val < win0_3.index t (3 : Fin 5) * 128 + 128; omega
  | ⟨4, _⟩ => show win0_3.index t (4 : Fin 5) * 128 ≤ (i 4).val ∧ (i 4).val < win0_3.index t (4 : Fin 5) * 128 + 128; omega

/-- The result array after the region: the grouped result of the arrays the region finds. -/
theorem final (c : Dev nD) :
    (dats m 0 c).arrAt 3 cfg0.N = R5 (V m c main_v0) (V m c main_v1) (V m c main_v2) :=
  (dats m 0 c).arrAt_eq_of_cover 3 _ (fun t _ => flushed_eq m c t) cover

/-! ## The arrays the region finds: the arguments, regrouped -/

/-- The regrouped input is the first argument cast to [16,8,4,128,128]. -/
theorem V_v0 (c : Dev nD) : (V m c main_v0 : S16x8x4x128x128.Idx → EReal)
    = shapeCast S16x8x4x128x128 (m ((c.tc : Thread nD τ).loc main_arg0)) shapeCasts_S16x32x16x32x32_S16x8x4x128x128 := by
  show StableHlo.after hostOps0 (fun b => m (c, b)) (Proc.devRef .tc main_v0) = _
  after_results
  rfl

/-- The scale, as a [1,8,1,1,1] array. -/
theorem V_v1 (c : Dev nD) : (V m c main_v1 : S1x8x1x1x1.Idx → EReal)
    = shapeCast S1x8x1x1x1 (m ((c.tc : Thread nD τ).loc main_arg1)) shapeCasts_S8_S1x8x1x1x1 := by
  show StableHlo.after hostOps0 (fun b => m (c, b)) (Proc.devRef .tc main_v1) = _
  after_results
  rfl

/-- The shift, as a [1,8,1,1,1] array. -/
theorem V_v2 (c : Dev nD) : (V m c main_v2 : S1x8x1x1x1.Idx → EReal)
    = shapeCast S1x8x1x1x1 (m ((c.tc : Thread nD τ).loc main_arg2)) shapeCasts_S8_S1x8x1x1x1 := by
  show StableHlo.after hostOps0 (fun b => m (c, b)) (Proc.devRef .tc main_v2) = _
  after_results
  rfl

/-- Entry (n, g, k, p, q) of the regrouped input is sample n, channel 4 g + k, spatial position 128 p + q. -/
theorem v0_at (c : Dev nD) (n : Fin 16) (g : Fin 8) (k : Fin 4) (p q : Fin 128) :
    V m c main_v0 (ix5 n g k p q) = Spec.at4 (m ((c.tc : Thread nD τ).loc main_arg0)) n (Spec.chan g k) p q := by
  refine (congrFun (V_v0 m c) (ix5 n g k p q)).trans ?_
  unfold Spec.at4 Spec.chan
  refine shapeCast_apply _ _ _ _ ?_
  refine (Shape.rowMajor_val_five (d := ![16, 32, 16, 32, 32]) _).trans ?_
  refine Eq.trans ?_ (Shape.rowMajor_val_five (d := ![16, 8, 4, 128, 128]) _).symm
  show ((((n.val * 32 + (g.val * 4 + k.val)) * 16 + p.val / 8) * 32 + ((p.val % 8) * 4 + q.val / 32)) * 32 + q.val % 32)
      = ((((n.val * 8 + g.val) * 4 + k.val) * 128 + p.val) * 128 + q.val)
  have := n.isLt; have := g.isLt; have := k.isLt; have := p.isLt; have := q.isLt
  omega

theorem v1_at (c : Dev nD) (g : Fin 8) :
    V m c main_v1 (ix5 0 g 0 0 0) = m ((c.tc : Thread nD τ).loc main_arg1) (ix1 g) := by
  refine (congrFun (V_v1 m c) (ix5 0 g 0 0 0)).trans ?_
  refine shapeCast_apply _ _ _ _ ?_
  refine (Shape.rowMajor_val_one (d := ![8]) _).trans ?_
  refine Eq.trans ?_ (Shape.rowMajor_val_five (d := ![1, 8, 1, 1, 1]) _).symm
  show g.val = ((((0 * 8 + g.val) * 1 + 0) * 1 + 0) * 1 + 0)
  omega

theorem v2_at (c : Dev nD) (g : Fin 8) :
    V m c main_v2 (ix5 0 g 0 0 0) = m ((c.tc : Thread nD τ).loc main_arg2) (ix1 g) := by
  refine (congrFun (V_v2 m c) (ix5 0 g 0 0 0)).trans ?_
  refine shapeCast_apply _ _ _ _ ?_
  refine (Shape.rowMajor_val_one (d := ![8]) _).trans ?_
  refine Eq.trans ?_ (Shape.rowMajor_val_five (d := ![1, 8, 1, 1, 1]) _).symm
  show g.val = ((((0 * 8 + g.val) * 1 + 0) * 1 + 0) * 1 + 0)
  omega

/-- One entry of the grouped result, in terms of the arguments. -/
theorem R_eq (c : Dev nD) (n : Fin 16) (g : Fin 8) (k : Fin 4) (p q : Fin 128) :
    R (V m c main_v0) (V m c main_v1) (V m c main_v2) n g k p q
      = Spec.arow (Spec.s1 (m ((c.tc : Thread nD τ).loc main_arg0)) g) (Spec.s2 (m ((c.tc : Thread nD τ).loc main_arg0)) g)
            (m ((c.tc : Thread nD τ).loc main_arg1) (ix1 g)) n k
          * Spec.at4 (m ((c.tc : Thread nD τ).loc main_arg0)) n (Spec.chan g k) p q
        + Spec.brow (Spec.s1 (m ((c.tc : Thread nD τ).loc main_arg0)) g) (Spec.s2 (m ((c.tc : Thread nD τ).loc main_arg0)) g)
            (m ((c.tc : Thread nD τ).loc main_arg1) (ix1 g)) (m ((c.tc : Thread nD τ).loc main_arg2) (ix1 g)) n k := by
  have h1 : A1 (V m c main_v0) g = Spec.s1 (m ((c.tc : Thread nD τ).loc main_arg0)) g := funext fun n' => funext fun k' =>
    Finset.sum_congr rfl fun p' _ => Finset.sum_congr rfl fun q' _ => v0_at m c n' g k' p' q'
  have h2 : A2 (V m c main_v0) g = Spec.s2 (m ((c.tc : Thread nD τ).loc main_arg0)) g := funext fun n' => funext fun k' =>
    Finset.sum_congr rfl fun p' _ => Finset.sum_congr rfl fun q' _ =>
      congrArg₂ (fun y y' : EReal => y * y') (v0_at m c n' g k' p' q') (v0_at m c n' g k' p' q')
  unfold R
  rw [h1, h2, v0_at m c n g k p q, v1_at m c g, v2_at m c g]

/-! ## The final reshape, and the run -/

/-- The grouped result read back at the argument's own layout is the specification's array: entry
    (n, ch, d, h, w) sits at group ch / 4, place ch % 4, spatial position 128 (8 d + h / 4) + 32 (h % 4) + w. -/
theorem result_eq (c : Dev nD) :
    shapeCast S16x32x16x32x32 (R5 (V m c main_v0) (V m c main_v1) (V m c main_v2)) shapeCasts_S16x8x4x128x128_S16x32x16x32x32
      = Spec.G (m ((c.tc : Thread nD τ).loc main_arg0)) (m ((c.tc : Thread nD τ).loc main_arg1)) (m ((c.tc : Thread nD τ).loc main_arg2)) := by
  funext i
  obtain ⟨n, ch, d, h, w, rfl⟩ : ∃ (n : Fin 16) (ch : Fin 32) (d : Fin 16) (h w : Fin 32), i = ix5 n ch d h w :=
    ⟨i 0, i 1, i 2, i 3, i 4, eq_ix5 i⟩
  have hn := n.isLt; have hch := ch.isLt; have hd := d.isLt; have hh := h.isLt; have hw := w.isLt
  obtain ⟨P, hP⟩ : ∃ P : Fin 128, P.val = 8 * d.val + h.val / 4 := ⟨⟨8 * d.val + h.val / 4, by omega⟩, rfl⟩
  obtain ⟨Q, hQ⟩ : ∃ Q : Fin 128, Q.val = 32 * (h.val % 4) + w.val := ⟨⟨32 * (h.val % 4) + w.val, by omega⟩, rfl⟩
  refine (shapeCast_apply _ _ _ (ix5 n (Spec.grp ch) (Spec.sub ch) P Q) ?_).trans ?_
  · refine (Shape.rowMajor_val_five (d := ![16, 8, 4, 128, 128]) _).trans ?_
    refine Eq.trans ?_ (Shape.rowMajor_val_five (d := ![16, 32, 16, 32, 32]) _).symm
    show ((((n.val * 8 + ch.val / 4) * 4 + ch.val % 4) * 128 + P.val) * 128 + Q.val)
      = ((((n.val * 32 + ch.val) * 16 + d.val) * 32 + h.val) * 32 + w.val)
    omega
  · have hX : Spec.at4 (m ((c.tc : Thread nD τ).loc main_arg0)) n (Spec.chan (Spec.grp ch) (Spec.sub ch)) P Q
        = m ((c.tc : Thread nD τ).loc main_arg0) (ix5 n ch d h w) := by
      unfold Spec.at4
      refine congrArg (m ((c.tc : Thread nD τ).loc main_arg0)) ?_
      funext a; apply Fin.ext
      match a with
      | ⟨0, _⟩ => rfl
      | ⟨1, _⟩ => show ch.val / 4 * 4 + ch.val % 4 = ch.val; omega
      | ⟨2, _⟩ => show P.val / 8 = d.val; omega
      | ⟨3, _⟩ => show P.val % 8 * 4 + Q.val / 32 = h.val; omega
      | ⟨4, _⟩ => show Q.val % 32 = w.val; omega
    show R (V m c main_v0) (V m c main_v1) (V m c main_v2) n (Spec.grp ch) (Spec.sub ch) P Q = _
    refine (R_eq m c n (Spec.grp ch) (Spec.sub ch) P Q).trans ?_
    rw [hX]
    rfl

/-- What the program's last line leaves in the result buffer. -/
theorem tail_eq (c : Dev nD) :
    Pipeline.afterTail₀ cfgs (dats m) 0 (V0 m) [hostOps1] c main_v4
      = Spec.G (m ((c.tc : Thread nD τ).loc main_arg0)) (m ((c.tc : Thread nD τ).loc main_arg1)) (m ((c.tc : Thread nD τ).loc main_arg2)) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = R5 (V m c main_v0) (V m c main_v1) (V m c main_v2) :=
    (Pipeline.withArrays_arr spec0 launch0.win.arr_inj c (V0 m c) (fun w => (dats m 0 c).arrAt w cfg0.N) 3).trans (final m c)
  rw [e]
  exact result_eq m c

/-- Every weakly fair execution of the kernel's program terminates, nothing faulting, with the result buffer at the
    specification's array of the arguments and the arguments unchanged. -/
theorem run : θ_run (defs (F := Ideal)) (onTc (τ := τ) (main (F := Ideal))) ⟨m, fun _ => 0, ρ⟩ (fun r => ∀ c : Dev nD,
      r.2.mem ((c.tc : Thread nD τ).loc main_v4)
          = Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefRun.lean ====
/-
  The reference's run, with every unscoped buffer named: every weakly fair execution of the reference ends with
  each unscoped buffer at the last boundary's contents, the fold of its host stretches and its two regions'
  write-backs from the launch memory. The frame of the program is the same run read at the three arguments only;
  here the final state is read at every buffer, so that the result can be followed back through the fold.
-/
import proofs.«167197_g2000702654276885_pallasbulk_1018_2_alg».proof.Proof.Gen.ReferenceIdeal.Frame

set_option maxRecDepth 16384

noncomputable section

namespace Cert.ReferenceIdeal.RValue

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer of every core at the
    contents the fold through the program's five segments leaves. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.ReferenceIdeal.RValue

end
-- ==== Proof.RefApply.lean ====
/-
  The reference's second region, as one function of the arrays it reads: with A and B two [512,1] columns and X a
  [512,16384] array, the region's result array holds A r · X (r, s) + B r at (r, s). The region tiles the array in
  256 × 4096 blocks; block (i, j) of the result is computed from block i of each column and block (i, j) of X, and
  the blocks of all eight points cover the array.
-/
import proofs.«167197_g2000702654276885_pallasbulk_1018_2_alg».proof.Proof.Gen.ReferenceIdeal.Frame
import Idealize.ShloMosaic.Lib.Pipeline.Value
import Idealize.ShloMosaic.Lib.ValueIdx

set_option maxRecDepth 16384

noncomputable section

namespace Cert.ReferenceIdeal.Apply

open Cert.ReferenceIdeal Cert.ReferenceIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row r of X scaled by A r and shifted by B r. -/
def rowAffine (A B : S512x1.Idx → EReal) (X : S512x16384.Idx → EReal) : S512x16384.Idx → EReal :=
  fun i => A (ix2 (i 0) 0) * X i + B (ix2 (i 0) 0)

/-- A [256,1] column repeated along 4096 lanes reads its row's one value. -/
theorem bcast_col {α : Type} (x : S256x1.Idx → α) (h : S256x1.Broadcasts S256x4096) (j : S256x4096.Idx) :
    broadcastTo S256x4096 x h j = x (ix2 (j 0) 0) :=
  broadcastTo_apply x h _ _ (fun a => by
    match a with
    | ⟨0, _⟩ => rfl
    | ⟨1, _⟩ => rfl)

/-- The body's stored value, entry by entry: the scale column's entry times the block's entry plus the shift column's. -/
theorem pay_fun (x0 x1 : Vec Ideal S256x1 .f32) (x2 : Vec Ideal S256x4096 .f32) :
    k1_pay1 x0 x2 x1 = fun j => x0 (ix2 (j 0) 0) * x2 j + x1 (ix2 (j 0) 0) := by
  funext j
  unfold k1_pay1
  simp only [shapeCast_self]
  show broadcastTo S256x4096 x0 _ j * x2 j + broadcastTo S256x4096 x1 _ j = _
  rw [bcast_col, bcast_col]

/-- The index maps over the grid: the columns' blocks follow the result's row block, X's block is the result's. -/
theorem idx_facts : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = win1_3.index t (0 : Fin 2) ∧ win1_2.index t (1 : Fin 2) = win1_3.index t (1 : Fin 2)
    ∧ win1_3.index t (0 : Fin 2) ≤ 1 ∧ win1_3.index t (1 : Fin 2) ≤ 3 :=
  (by decide +kernel : ∀ t : Fin grid1.N, _)

/-- Every block of the array is some point's. -/
theorem idx_onto : ∀ (q0 : Fin 2) (q1 : Fin 4), ∃ t : Fin cfg1.N, win1_3.index t = ![q0.val, q1.val] :=
  (by decide +kernel : ∀ (q0 : Fin 2) (q1 : Fin 4), ∃ t : Fin grid1.N, win1_3.index t = ![q0.val, q1.val])

/-- What point t writes back is block t of the row-affine array of the region's three input arrays. -/
theorem flushed_eq (c : Dev nD) (t : Fin cfg1.N) :
    (dat1 V c).flushed 3 t
      = ((cfg1.win 3).blk t).view.read (Elt Ideal) (rowAffine (V c main_v71) (V c main_v81) (V c main_v0)) := by
  show (cfg1.win 3).cut (grid1.coords t) ((dat1 V c).after 3 t) = _
  rw [after1_3]
  unfold out1_3
  rw [View.canon_unit_zero hz]
  simp only [View.ld_unit_zero (S := S256x1) hz, View.ld_unit_zero (S := S256x4096) hz]
  obtain ⟨e0, e1, e2, e3, e4, e5, e6, e7⟩ := idx_facts t
  funext j
  refine (congrFun (pay_fun (iblk1 V c 0 t) (iblk1 V c 1 t) (iblk1 V c 2 t)) j).trans ?_
  let A : S512x1.Idx → EReal := V c main_v71
  let B : S512x1.Idx → EReal := V c main_v81
  let X : S512x16384.Idx → EReal := V c main_v0
  have h0 : ((cfg1.win 0).blk t).view.emb (ix2 (j 0) 0 : S256x1.Idx)
      = (ix2 ((((cfg1.win 3).blk t).view.emb j) 0) 0 : S512x1.Idx) := by
    funext a; apply Fin.ext
    match a with
    | ⟨0, _⟩ => show win1_0.index t (0 : Fin 2) * 256 + 1 * (j 0).val = win1_3.index t (0 : Fin 2) * 256 + 1 * (j 0).val; omega
    | ⟨1, _⟩ => show win1_0.index t (1 : Fin 2) * 1 + 1 * 0 = 0; omega
  have h1 : ((cfg1.win 1).blk t).view.emb (ix2 (j 0) 0 : S256x1.Idx)
      = (ix2 ((((cfg1.win 3).blk t).view.emb j) 0) 0 : S512x1.Idx) := by
    funext a; apply Fin.ext
    match a with
    | ⟨0, _⟩ => show win1_1.index t (0 : Fin 2) * 256 + 1 * (j 0).val = win1_3.index t (0 : Fin 2) * 256 + 1 * (j 0).val; omega
    | ⟨1, _⟩ => show win1_1.index t (1 : Fin 2) * 1 + 1 * 0 = 0; omega
  have h2 : ((cfg1.win 2).blk t).view.emb j = ((cfg1.win 3).blk t).view.emb j := by
    funext a; apply Fin.ext
    match a with
    | ⟨0, _⟩ => show win1_2.index t (0 : Fin 2) * 256 + 1 * (j 0).val = win1_3.index t (0 : Fin 2) * 256 + 1 * (j 0).val; omega
    | ⟨1, _⟩ => show win1_2.index t (1 : Fin 2) * 4096 + 1 * (j 1).val = win1_3.index t (1 : Fin 2) * 4096 + 1 * (j 1).val; omega
  exact congrArg₂ (· + ·) (congrArg₂ (· * ·) (congrArg A h0) (congrArg X h2)) (congrArg B h1)

/-- An index is in point t's block iff each coordinate is in the block's range on its axis. -/
theorem mem_blk (t : Fin cfg1.N) (i : S512x16384.Idx) :
    i ∈ ((cfg1.win 3).blk t).view.set ↔ ∀ a : Fin 2, win1_3.index t a * S256x4096.size a ≤ (i a).val ∧ (i a).val < win1_3.index t a * S256x4096.size a + S256x4096.size a := by
  show i ∈ ((View.whole main_v82).slice (win1_3.rect t)).set ↔ _
  rw [View.set_slice_whole, Rect.mem_set_unit]
  exact Iff.rfl

/-- The blocks cover the array: entry (r, s) is in the block of the point with row block r / 256 and lane block s / 4096. -/
theorem cover (i : S512x16384.Idx) : ∃ t : Fin cfg1.N, (cfg1.win 3).flush t = true ∧ i ∈ ((cfg1.win 3).blk t).view.set := by
  have hi0 : (i 0).val < 512 := (i 0).isLt
  have hi1 : (i 1).val < 16384 := (i 1).isLt
  obtain ⟨t, ht⟩ := idx_onto ⟨(i 0).val / 256, by omega⟩ ⟨(i 1).val / 4096, by omega⟩
  have q0 : win1_3.index t (0 : Fin 2) = (i 0).val / 256 := congrFun ht 0
  have q1 : win1_3.index t (1 : Fin 2) = (i 1).val / 4096 := congrFun ht 1
  refine ⟨t, flush1_3 t, ?_⟩
  rw [mem_blk]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 4096 ≤ (i 1).val ∧ (i 1).val < win1_3.index t (1 : Fin 2) * 4096 + 4096; omega

/-- The region's result array after the run. -/
theorem final (c : Dev nD) :
    (dat1 V c).arrAt 3 cfg1.N = rowAffine (V c main_v71) (V c main_v81) (V c main_v0) :=
  (dat1 V c).arrAt_eq_of_cover 3 (rowAffine (V c main_v71) (V c main_v81) (V c main_v0)) (fun t _ => flushed_eq V c t) cover

end Cert.ReferenceIdeal.Apply

end
-- ==== Proof.LayoutHost.lean ====
/-
  Reads of the reference's host layout operations at an index, over literal shapes.

  The reference keeps its per-row statistics as small host arrays: [512] vectors of row sums reshaped to
  [16,32] (sample, channel); per-channel [32] vectors repeated over the samples; [16,32] arrays reshaped to
  [16,8,4] (sample, group, channel in group) and summed over the last axis to [16,8]; per-group and
  per-channel values repeated to [16,8,4]; and [16,8,4] reshaped to a [512,1] column. Each lemma says which
  entry of the operand one entry of the result reads; the three sums are the host's reduce with an add body.
-/
import Idealize.ShloMosaic.Lib.Pipeline.Value
import Idealize.ShloMosaic.Lib.ValueIdx
import Idealize.ShloMosaic.PureOps.Ideal.Laws

noncomputable section

namespace Cert.LayoutHost

open Idealize.ShloMosaic Idealize.ShloMosaic.ValueIdx

abbrev P2 : Shape := ⟨2, ![512, 128]⟩
abbrev V512 : Shape := ⟨1, ![512]⟩
abbrev NC : Shape := ⟨2, ![16, 32]⟩
abbrev C32 : Shape := ⟨1, ![32]⟩
abbrev C1x32 : Shape := ⟨2, ![1, 32]⟩
abbrev NGK : Shape := ⟨3, ![16, 8, 4]⟩
abbrev NG : Shape := ⟨2, ![16, 8]⟩
abbrev G1 : Shape := ⟨3, ![1, 8, 1]⟩
abbrev NG1 : Shape := ⟨3, ![16, 8, 1]⟩
abbrev GK : Shape := ⟨3, ![1, 8, 4]⟩
abbrev Col : Shape := ⟨2, ![512, 1]⟩
abbrev G8 : Shape := ⟨1, ![8]⟩
abbrev Sc : Shape := ⟨0, ![]⟩

variable {α : Type}

/-! ## Reshapes -/

/-- [512] as [16,32]: entry (n, c) is entry 32 n + c. -/
theorem cast_V512_NC (x : V512.Idx → α) (h : V512.ShapeCasts NC) (n : Fin 16) (c : Fin 32) :
    shapeCast NC x h (ix2 n c) = x (ix1 ⟨n.val * 32 + c.val, by have := n.isLt; have := c.isLt; omega⟩) :=
  shapeCast_apply x h _ _ (by
    rw [Shape.rowMajor_val_one, Shape.rowMajor_val_two]; rfl)

/-- [16,32] as [16,8,4]: entry (n, g, k) is entry (n, 4 g + k). -/
theorem cast_NC_NGK (x : NC.Idx → α) (h : NC.ShapeCasts NGK) (n : Fin 16) (g : Fin 8) (k : Fin 4) :
    shapeCast NGK x h (ix3 n g k) = x (ix2 n ⟨g.val * 4 + k.val, by have := g.isLt; have := k.isLt; omega⟩) :=
  shapeCast_apply x h _ _ (by
    rw [Shape.rowMajor_val_two, Shape.rowMajor_val_three]
    show n.val * 32 + (g.val * 4 + k.val) = (n.val * 8 + g.val) * 4 + k.val
    omega)

/-- [8] as [1,8,1]. -/
theorem cast_G8_G1 (x : G8.Idx → α) (h : G8.ShapeCasts G1) (z : Fin 1) (g : Fin 8) (u : Fin 1) :
    shapeCast G1 x h (ix3 z g u) = x (ix1 g) :=
  shapeCast_apply x h _ _ (by
    rw [Shape.rowMajor_val_one, Shape.rowMajor_val_three]
    have hz := z.isLt; have hu := u.isLt
    show g.val = (z.val * 8 + g.val) * 1 + u.val
    omega)

/-- [32] as [1,8,4]: entry (·, g, k) is entry 4 g + k. -/
theorem cast_C32_GK (x : C32.Idx → α) (h : C32.ShapeCasts GK) (z : Fin 1) (g : Fin 8) (k : Fin 4) :
    shapeCast GK x h (ix3 z g k) = x (ix1 ⟨g.val * 4 + k.val, by have := g.isLt; have := k.isLt; omega⟩) :=
  shapeCast_apply x h _ _ (by
    rw [Shape.rowMajor_val_one, Shape.rowMajor_val_three]
    have hz := z.isLt
    show g.val * 4 + k.val = (z.val * 8 + g.val) * 4 + k.val
    omega)

/-- [16,8,4] as a [512,1] column: row r is entry (r / 32, r % 32 / 4, r % 4). -/
theorem cast_NGK_Col (x : NGK.Idx → α) (h : NGK.ShapeCasts Col) (r : Fin 512) (u : Fin 1) :
    shapeCast Col x h (ix2 r u)
      = x (ix3 ⟨r.val / 32, by have := r.isLt; omega⟩ ⟨r.val % 32 / 4, by omega⟩ ⟨r.val % 4, by omega⟩) :=
  shapeCast_apply x h _ _ (by
    rw [Shape.rowMajor_val_two, Shape.rowMajor_val_three]
    have hu := u.isLt
    show (r.val / 32 * 8 + r.val % 32 / 4) * 4 + r.val % 4 = r.val * 1 + u.val
    omega)

/-! ## Broadcasts -/

/-- A scalar constant broadcast to any shape. -/
theorem bcast_scalar {s : Shape} (h : Sc.BroadcastsInDim s ![]) (x : Sc.Idx → α) (j : s.Idx) :
    broadcastInDim s ![] h x j = x ix0 :=
  congrArg x (funext fun a => a.elim0)

/-- [32] as a row [1,32]. -/
theorem bcast_C32_C1x32 (h : C32.BroadcastsInDim C1x32 ![1]) (x : C32.Idx → α) (z : Fin 1) (c : Fin 32) :
    broadcastInDim C1x32 ![1] h x (ix2 z c) = x (ix1 c) :=
  broadcastInDim_apply _ h x _ _ (fun a => by
    match a with
    | ⟨0, _⟩ => rfl)

/-- A row [1,32] repeated over 16 samples. -/
theorem bcast_C1x32_NC (h : C1x32.BroadcastsInDim NC ![0, 1]) (x : C1x32.Idx → α) (n : Fin 16) (c : Fin 32) :
    broadcastInDim NC ![0, 1] h x (ix2 n c) = x (ix2 0 c) :=
  broadcastInDim_apply _ h x _ _ (fun a => by
    match a with
    | ⟨0, _⟩ => rfl
    | ⟨1, _⟩ => rfl)

/-- [16,8] with a trailing unit axis. -/
theorem bcast_NG_NG1 (h : NG.BroadcastsInDim NG1 ![0, 1]) (x : NG.Idx → α) (n : Fin 16) (g : Fin 8) (u : Fin 1) :
    broadcastInDim NG1 ![0, 1] h x (ix3 n g u) = x (ix2 n g) :=
  broadcastInDim_apply _ h x _ _ (fun a => by
    match a with
    | ⟨0, _⟩ => rfl
    | ⟨1, _⟩ => rfl)

/-- A per-group [1,8,1] repeated over 16 samples. -/
theorem bcast_G1_NG1 (h : G1.BroadcastsInDim NG1 ![0, 1, 2]) (x : G1.Idx → α) (n : Fin 16) (g : Fin 8) (u : Fin 1) :
    broadcastInDim NG1 ![0, 1, 2] h x (ix3 n g u) = x (ix3 0 g 0) :=
  broadcastInDim_apply _ h x _ _ (fun a => by
    match a with
    | ⟨0, _⟩ => rfl
    | ⟨1, _⟩ => rfl
    | ⟨2, _⟩ => rfl)

/-- A per-(sample, group) [16,8,1] repeated over the group's 4 channels. -/
theorem bcast_NG1_NGK (h : NG1.BroadcastsInDim NGK ![0, 1, 2]) (x : NG1.Idx → α) (n : Fin 16) (g : Fin 8) (k : Fin 4) :
    broadcastInDim NGK ![0, 1, 2] h x (ix3 n g k) = x (ix3 n g 0) :=
  broadcastInDim_apply _ h x _ _ (fun a => by
    match a with
    | ⟨0, _⟩ => rfl
    | ⟨1, _⟩ => rfl
    | ⟨2, _⟩ => rfl)

/-- A per-channel [1,8,4] repeated over 16 samples. -/
theorem bcast_GK_NGK (h : GK.BroadcastsInDim NGK ![0, 1, 2]) (x : GK.Idx → α) (n : Fin 16) (g : Fin 8) (k : Fin 4) :
    broadcastInDim NGK ![0, 1, 2] h x (ix3 n g k) = x (ix3 0 g k) :=
  broadcastInDim_apply _ h x _ _ (fun a => by
    match a with
    | ⟨0, _⟩ => rfl
    | ⟨1, _⟩ => rfl
    | ⟨2, _⟩ => rfl)

/-- A per-group [1,8,1] repeated over samples and channels. -/
theorem bcast_G1_NGK (h : G1.BroadcastsInDim NGK ![0, 1, 2]) (x : G1.Idx → α) (n : Fin 16) (g : Fin 8) (k : Fin 4) :
    broadcastInDim NGK ![0, 1, 2] h x (ix3 n g k) = x (ix3 0 g 0) :=
  broadcastInDim_apply _ h x _ _ (fun a => by
    match a with
    | ⟨0, _⟩ => rfl
    | ⟨1, _⟩ => rfl
    | ⟨2, _⟩ => rfl)

/-! ## The host's sums -/

/-- The sum over the 128 lanes of a [512,128] array, per row, from an initial value. -/
theorem sum_lanes (h' : P2.ReducesTo [1] V512) (x : P2.Idx → EReal) (init : EReal) (r : Fin 512) :
    Ideal.hostReduceAdd h' x init (ix1 r) = init + ∑ l : Fin 128, x (ix2 r l) := by
  refine (Ideal.hostReduceAdd_single h' (by decide : P2.Reduces [1] V512) x init (ix1 r)).trans ?_
  refine congrArg (init + ·) (Finset.sum_congr rfl fun l _ => congrArg x ?_)
  funext c; apply Fin.ext
  match c with
  | ⟨0, _⟩ => rfl
  | ⟨1, _⟩ => rfl

/-- The sum over the 16 samples of a [16,32] array, per channel. -/
theorem sum_samples (h' : NC.ReducesTo [0] C32) (x : NC.Idx → EReal) (init : EReal) (c : Fin 32) :
    Ideal.hostReduceAdd h' x init (ix1 c) = init + ∑ n : Fin 16, x (ix2 n c) := by
  refine (Ideal.hostReduceAdd_single h' (by decide : NC.Reduces [0] C32) x init (ix1 c)).trans ?_
  refine congrArg (init + ·) (Finset.sum_congr rfl fun n _ => congrArg x ?_)
  funext a; apply Fin.ext
  match a with
  | ⟨0, _⟩ => rfl
  | ⟨1, _⟩ => rfl

/-- The sum over a group's 4 channels of a [16,8,4] array, per (sample, group). -/
theorem sum_group (h' : NGK.ReducesTo [2] NG) (x : NGK.Idx → EReal) (init : EReal) (n : Fin 16) (g : Fin 8) :
    Ideal.hostReduceAdd h' x init (ix2 n g) = init + ∑ k : Fin 4, x (ix3 n g k) := by
  refine (Ideal.hostReduceAdd_single h' (by decide : NGK.Reduces [2] NG) x init (ix2 n g)).trans ?_
  refine congrArg (init + ·) (Finset.sum_congr rfl fun k _ => congrArg x ?_)
  funext a; apply Fin.ext
  match a with
  | ⟨0, _⟩ => rfl
  | ⟨1, _⟩ => rfl
  | ⟨2, _⟩ => rfl

end Cert.LayoutHost

end
-- ==== Proof.RefHost.lean ====
/-
  The reference's host arithmetic between its two regions, read at an index.

  From the two [512,128] arrays of lane partial sums P (of x) and Q (of x²) and the scale and shift vectors, the
  host computes the two [512,1] columns the second region applies: the row sums (a sum over the 128 lanes, from
  zero), per channel the mean, a = rsqrt (max (E x² − mean²) 0 + eps) and b = −mean · a, per (sample, channel) the
  stage-one output's moments, per (sample, group) their mean and inverse deviation, and the per-row scale and
  shift. Stage by stage these are the group chain of the specification at the rows' raw moments: the quotients
  by 2^18 and 2^16 are the products with the reciprocals, the host's negation is the difference from zero, and
  the sums start from the zero word, which is 0.
-/
import proofs.«167197_g2000702654276885_pallasbulk_1018_2_alg».proof.Proof.Gen.ReferenceIdeal.Frame
import proofs.«167197_g2000702654276885_pallasbulk_1018_2_alg».proof.Proof.Spec
import proofs.«167197_g2000702654276885_pallasbulk_1018_2_alg».proof.Proof.LayoutHost
import Idealize.ShloMosaic.Lib.ValueIdx

noncomputable section

namespace Cert.ReferenceIdeal.Host

open Cert.ReferenceIdeal Cert.ReferenceIdeal.Gen
open Idealize.ShloMosaic Idealize.ShloMosaic.ValueIdx
open Cert (Spec.z0 Spec.c18 Spec.c16 Spec.eps Spec.sTot Spec.two)

/-! ## The stages, as the program composes them -/

abbrev zc : FVec Ideal S_ .f32 := constant (F := Ideal) S_ .f32 0x00000000#32
abbrev kc (w : BitVec 32) : FVec Ideal S_ .f32 := constant (F := Ideal) S_ .f32 w

/-- Row sums of a lane-partial array, as [16,32] (sample, channel). -/
def sumNC (P : FVec Ideal S512x128 .f32) : FVec Ideal S16x32 .f32 :=
  shapeCast S16x32 (Host.reduceAdd (F := Ideal) P zc reducesTo_S512x128_S512_d1 h_S_) shapeCasts_S512_S16x32

/-- The per-channel mean of the rows' sums. -/
def meanC (P : FVec Ideal S512x128 .f32) : FVec Ideal S32 .f32 :=
  Host.divf (F := Ideal) (Host.reduceAdd (F := Ideal) (sumNC P) zc reducesTo_S16x32_S32_d0 h_S_)
    (broadcastInDim S32 ![] bcast_S_S32 (kc 0x48800000#32))

def aC (P Q : FVec Ideal S512x128 .f32) : FVec Ideal S32 .f32 :=
  Host.rsqrt (F := Ideal) (addf (maximumf (subf (meanC Q) (mulf (meanC P) (meanC P)))
    (broadcastInDim S32 ![] bcast_S_S32 (kc 0x00000000#32))) (broadcastInDim S32 ![] bcast_S_S32 (kc 0x3727C5AC#32)))

def bC (P Q : FVec Ideal S512x128 .f32) : FVec Ideal S32 .f32 :=
  mulf (Host.negf (F := Ideal) (meanC P)) (aC P Q)

abbrev row (v : FVec Ideal S32 .f32) : FVec Ideal S1x32 .f32 := broadcastInDim S1x32 ![1] bcast_S32_S1x32_1 v
abbrev rows (v : FVec Ideal S1x32 .f32) : FVec Ideal S16x32 .f32 := broadcastInDim S16x32 ![0, 1] bcast_S1x32_S16x32_0_1 v
abbrev k1x32 (w : BitVec 32) : FVec Ideal S1x32 .f32 := broadcastInDim S1x32 ![] bcast_S_S1x32 (kc w)

def sumY (P Q : FVec Ideal S512x128 .f32) : FVec Ideal S16x32 .f32 :=
  addf (mulf (rows (row (aC P Q))) (sumNC P)) (rows (mulf (row (bC P Q)) (k1x32 0x46800000#32)))

def ssqY (P Q : FVec Ideal S512x128 .f32) : FVec Ideal S16x32 .f32 :=
  addf (addf (mulf (rows (mulf (row (aC P Q)) (row (aC P Q)))) (sumNC Q))
      (mulf (rows (mulf (mulf (k1x32 0x40000000#32) (row (aC P Q))) (row (bC P Q)))) (sumNC P)))
    (rows (mulf (mulf (row (bC P Q)) (row (bC P Q))) (k1x32 0x46800000#32)))

/-- The per-(sample, group) mean of a [16,32] array over the group's channels. -/
def meanOf (Y : FVec Ideal S16x32 .f32) : FVec Ideal S16x8 .f32 :=
  Host.divf (F := Ideal) (Host.reduceAdd (F := Ideal) (shapeCast S16x8x4 Y shapeCasts_S16x32_S16x8x4) zc reducesTo_S16x8x4_S16x8_d2 h_S_)
    (broadcastInDim S16x8 ![] bcast_S_S16x8 (kc 0x47800000#32))

def invG (P Q : FVec Ideal S512x128 .f32) : FVec Ideal S16x8 .f32 :=
  Host.rsqrt (F := Ideal) (addf (maximumf (subf (meanOf (ssqY P Q)) (mulf (meanOf (sumY P Q)) (meanOf (sumY P Q))))
    (broadcastInDim S16x8 ![] bcast_S_S16x8 (kc 0x00000000#32))) (broadcastInDim S16x8 ![] bcast_S_S16x8 (kc 0x3727C5AC#32)))

def scaleG (P Q : FVec Ideal S512x128 .f32) (wv : FVec Ideal S8 .f32) : FVec Ideal S16x8x1 .f32 :=
  mulf (broadcastInDim S16x8x1 ![0, 1, 2] bcast_S1x8x1_S16x8x1_0_1_2 (shapeCast S1x8x1 wv shapeCasts_S8_S1x8x1))
    (broadcastInDim S16x8x1 ![0, 1] bcast_S16x8_S16x8x1_0_1 (invG P Q))

abbrev perChan (v : FVec Ideal S32 .f32) : FVec Ideal S16x8x4 .f32 :=
  broadcastInDim S16x8x4 ![0, 1, 2] bcast_S1x8x4_S16x8x4_0_1_2 (shapeCast S1x8x4 v shapeCasts_S32_S1x8x4)
abbrev perGroup (v : FVec Ideal S16x8x1 .f32) : FVec Ideal S16x8x4 .f32 :=
  broadcastInDim S16x8x4 ![0, 1, 2] bcast_S16x8x1_S16x8x4_0_1_2 v

/-- The scale column. -/
def colA (P Q : FVec Ideal S512x128 .f32) (wv : FVec Ideal S8 .f32) : FVec Ideal S512x1 .f32 :=
  shapeCast S512x1 (mulf (perGroup (scaleG P Q wv)) (perChan (aC P Q))) shapeCasts_S16x8x4_S512x1

/-- The shift column. -/
def colB (P Q : FVec Ideal S512x128 .f32) (wv bv : FVec Ideal S8 .f32) : FVec Ideal S512x1 .f32 :=
  shapeCast S512x1 (addf (mulf (perGroup (scaleG P Q wv))
      (subf (perChan (bC P Q)) (perGroup (broadcastInDim S16x8x1 ![0, 1] bcast_S16x8_S16x8x1_0_1 (meanOf (sumY P Q))))))
    (broadcastInDim S16x8x4 ![0, 1, 2] bcast_S1x8x1_S16x8x4_0_1_2 (shapeCast S1x8x1 bv shapeCasts_S8_S1x8x1))) shapeCasts_S16x8x4_S512x1

/-! ## Each stage at an index -/

variable (P Q : FVec Ideal S512x128 .f32) (wv bv : FVec Ideal S8 .f32)

theorem sumNC_apply (n : Fin 16) (c : Fin 32) :
    sumNC P (ix2 n c) = Spec.z0 + ∑ l : Fin 128, P (ix2 ⟨n.val * 32 + c.val, by have := n.isLt; have := c.isLt; omega⟩ l) := by
  unfold sumNC
  rw [LayoutHost.cast_V512_NC]
  exact LayoutHost.sum_lanes reducesTo_S512x128_S512_d1 P Spec.z0 _

theorem meanC_apply (c : Fin 32) :
    meanC P (ix1 c) = (Spec.z0 + ∑ n : Fin 16, sumNC P (ix2 n c)) * Spec.c18 := by
  show Ideal.div (Ideal.hostReduceAdd reducesTo_S16x32_S32_d0 (sumNC P) Spec.z0 (ix1 c))
      (broadcastInDim S32 ![] bcast_S_S32 (kc 0x48800000#32) (ix1 c)) = _
  rw [LayoutHost.sum_samples, LayoutHost.bcast_scalar]
  exact Spec.div_pow18 _

theorem aC_apply (c : Fin 32) :
    aC P Q (ix1 c) = Ideal.rsqrt (max (meanC Q (ix1 c) - meanC P (ix1 c) * meanC P (ix1 c)) Spec.z0 + Spec.eps) := rfl

theorem bC_apply (c : Fin 32) : bC P Q (ix1 c) = -(meanC P (ix1 c)) * aC P Q (ix1 c) := rfl

theorem rows_row_apply (v : FVec Ideal S32 .f32) (n : Fin 16) (c : Fin 32) : rows (row v) (ix2 n c) = v (ix1 c) := by
  show broadcastInDim S16x32 ![0, 1] bcast_S1x32_S16x32_0_1 (broadcastInDim S1x32 ![1] bcast_S32_S1x32_1 v) (ix2 n c) = _
  rw [LayoutHost.bcast_C1x32_NC, LayoutHost.bcast_C32_C1x32]

theorem rows_apply (v : FVec Ideal S1x32 .f32) (n : Fin 16) (c : Fin 32) : rows v (ix2 n c) = v (ix2 0 c) :=
  LayoutHost.bcast_C1x32_NC _ v n c

theorem row_apply (v : FVec Ideal S32 .f32) (z : Fin 1) (c : Fin 32) : row v (ix2 z c) = v (ix1 c) :=
  LayoutHost.bcast_C32_C1x32 _ v z c

theorem sumY_apply (n : Fin 16) (c : Fin 32) :
    sumY P Q (ix2 n c) = aC P Q (ix1 c) * sumNC P (ix2 n c) + bC P Q (ix1 c) * Spec.sTot := by
  show rows (row (aC P Q)) (ix2 n c) * sumNC P (ix2 n c) + rows (mulf (row (bC P Q)) (k1x32 0x46800000#32)) (ix2 n c) = _
  rw [rows_row_apply, rows_apply]
  show _ + row (bC P Q) (ix2 0 c) * _ = _
  rw [row_apply]
  rfl

theorem ssqY_apply (n : Fin 16) (c : Fin 32) :
    ssqY P Q (ix2 n c) = aC P Q (ix1 c) * aC P Q (ix1 c) * sumNC Q (ix2 n c)
      + Spec.two * aC P Q (ix1 c) * bC P Q (ix1 c) * sumNC P (ix2 n c) + bC P Q (ix1 c) * bC P Q (ix1 c) * Spec.sTot := by
  show rows (mulf (row (aC P Q)) (row (aC P Q))) (ix2 n c) * sumNC Q (ix2 n c)
      + rows (mulf (mulf (k1x32 0x40000000#32) (row (aC P Q))) (row (bC P Q))) (ix2 n c) * sumNC P (ix2 n c)
      + rows (mulf (mulf (row (bC P Q)) (row (bC P Q))) (k1x32 0x46800000#32)) (ix2 n c) = _
  rw [rows_apply, rows_apply, rows_apply]
  show row (aC P Q) (ix2 0 c) * row (aC P Q) (ix2 0 c) * _ + Spec.two * row (aC P Q) (ix2 0 c) * row (bC P Q) (ix2 0 c) * _
      + row (bC P Q) (ix2 0 c) * row (bC P Q) (ix2 0 c) * Spec.sTot = _
  rw [row_apply, row_apply]

theorem meanOf_apply (Y : FVec Ideal S16x32 .f32) (n : Fin 16) (g : Fin 8) :
    meanOf Y (ix2 n g) = (Spec.z0 + ∑ k : Fin 4, Y (ix2 n (Spec.chan g k))) * Spec.c16 := by
  show Ideal.div (Ideal.hostReduceAdd reducesTo_S16x8x4_S16x8_d2 (shapeCast S16x8x4 Y shapeCasts_S16x32_S16x8x4) Spec.z0 (ix2 n g))
      (broadcastInDim S16x8 ![] bcast_S_S16x8 (kc 0x47800000#32) (ix2 n g)) = _
  rw [LayoutHost.sum_group, LayoutHost.bcast_scalar]
  refine (Spec.div_pow16 _).trans ?_
  refine congrArg (fun s => (Spec.z0 + s) * Spec.c16) (Finset.sum_congr rfl fun k _ => ?_)
  exact LayoutHost.cast_NC_NGK Y _ n g k

theorem invG_apply (n : Fin 16) (g : Fin 8) :
    invG P Q (ix2 n g) = Ideal.rsqrt (max (meanOf (ssqY P Q) (ix2 n g) - meanOf (sumY P Q) (ix2 n g) * meanOf (sumY P Q) (ix2 n g)) Spec.z0 + Spec.eps) := rfl

theorem scaleG_apply (n : Fin 16) (g : Fin 8) (u : Fin 1) :
    scaleG P Q wv (ix3 n g u) = wv (ix1 g) * invG P Q (ix2 n g) := by
  show broadcastInDim S16x8x1 ![0, 1, 2] bcast_S1x8x1_S16x8x1_0_1_2 (shapeCast S1x8x1 wv shapeCasts_S8_S1x8x1) (ix3 n g u)
      * broadcastInDim S16x8x1 ![0, 1] bcast_S16x8_S16x8x1_0_1 (invG P Q) (ix3 n g u) = _
  rw [LayoutHost.bcast_G1_NG1, LayoutHost.bcast_NG_NG1, LayoutHost.cast_G8_G1]

theorem perChan_apply (v : FVec Ideal S32 .f32) (n : Fin 16) (g : Fin 8) (k : Fin 4) :
    perChan v (ix3 n g k) = v (ix1 (Spec.chan g k)) := by
  show broadcastInDim S16x8x4 ![0, 1, 2] bcast_S1x8x4_S16x8x4_0_1_2 (shapeCast S1x8x4 v shapeCasts_S32_S1x8x4) (ix3 n g k) = _
  rw [LayoutHost.bcast_GK_NGK]
  exact LayoutHost.cast_C32_GK v _ 0 g k

theorem perGroup_apply (v : FVec Ideal S16x8x1 .f32) (n : Fin 16) (g : Fin 8) (k : Fin 4) :
    perGroup v (ix3 n g k) = v (ix3 n g 0) :=
  LayoutHost.bcast_NG1_NGK _ v n g k

/-- Row 32 n + 4 g + k of the scale column. -/
theorem colA_apply (n : Fin 16) (g : Fin 8) (k : Fin 4) (u : Fin 1) :
    colA P Q wv (ix2 ⟨n.val * 32 + (g.val * 4 + k.val), by have := n.isLt; have := g.isLt; have := k.isLt; omega⟩ u)
      = wv (ix1 g) * invG P Q (ix2 n g) * aC P Q (ix1 (Spec.chan g k)) := by
  unfold colA
  rw [LayoutHost.cast_NGK_Col]
  have hn : (⟨(n.val * 32 + (g.val * 4 + k.val)) / 32, by have := n.isLt; have := g.isLt; have := k.isLt; omega⟩ : Fin 16) = n :=
    Fin.ext (by have := g.isLt; have := k.isLt; show (n.val * 32 + (g.val * 4 + k.val)) / 32 = n.val; omega)
  have hg : (⟨(n.val * 32 + (g.val * 4 + k.val)) % 32 / 4, by omega⟩ : Fin 8) = g :=
    Fin.ext (by have := g.isLt; have := k.isLt; show (n.val * 32 + (g.val * 4 + k.val)) % 32 / 4 = g.val; omega)
  have hk : (⟨(n.val * 32 + (g.val * 4 + k.val)) % 4, by omega⟩ : Fin 4) = k :=
    Fin.ext (by have := g.isLt; have := k.isLt; show (n.val * 32 + (g.val * 4 + k.val)) % 4 = k.val; omega)
  rw [hn, hg, hk]
  show perGroup (scaleG P Q wv) (ix3 n g k) * perChan (aC P Q) (ix3 n g k) = _
  rw [perGroup_apply, perChan_apply, scaleG_apply]

/-- Row 32 n + 4 g + k of the shift column. -/
theorem colB_apply (n : Fin 16) (g : Fin 8) (k : Fin 4) (u : Fin 1) :
    colB P Q wv bv (ix2 ⟨n.val * 32 + (g.val * 4 + k.val), by have := n.isLt; have := g.isLt; have := k.isLt; omega⟩ u)
      = wv (ix1 g) * invG P Q (ix2 n g) * (bC P Q (ix1 (Spec.chan g k)) - meanOf (sumY P Q) (ix2 n g)) + bv (ix1 g) := by
  unfold colB
  rw [LayoutHost.cast_NGK_Col]
  have hn : (⟨(n.val * 32 + (g.val * 4 + k.val)) / 32, by have := n.isLt; have := g.isLt; have := k.isLt; omega⟩ : Fin 16) = n :=
    Fin.ext (by have := g.isLt; have := k.isLt; show (n.val * 32 + (g.val * 4 + k.val)) / 32 = n.val; omega)
  have hg : (⟨(n.val * 32 + (g.val * 4 + k.val)) % 32 / 4, by omega⟩ : Fin 8) = g :=
    Fin.ext (by have := g.isLt; have := k.isLt; show (n.val * 32 + (g.val * 4 + k.val)) % 32 / 4 = g.val; omega)
  have hk : (⟨(n.val * 32 + (g.val * 4 + k.val)) % 4, by omega⟩ : Fin 4) = k :=
    Fin.ext (by have := g.isLt; have := k.isLt; show (n.val * 32 + (g.val * 4 + k.val)) % 4 = k.val; omega)
  rw [hn, hg, hk]
  show perGroup (scaleG P Q wv) (ix3 n g k)
      * (perChan (bC P Q) (ix3 n g k) - perGroup (broadcastInDim S16x8x1 ![0, 1] bcast_S16x8_S16x8x1_0_1 (meanOf (sumY P Q))) (ix3 n g k))
      + broadcastInDim S16x8x4 ![0, 1, 2] bcast_S1x8x1_S16x8x4_0_1_2 (shapeCast S1x8x1 bv shapeCasts_S8_S1x8x1) (ix3 n g k) = _
  rw [perGroup_apply, perChan_apply, scaleG_apply, perGroup_apply, LayoutHost.bcast_NG_NG1, LayoutHost.bcast_G1_NGK, LayoutHost.cast_G8_G1]

/-! ## The stages are the specification's chain at the rows' raw moments -/

section bridge
variable (m1 m2 : Fin 16 → Fin 32 → EReal)
  (h1 : ∀ n c, sumNC P (ix2 n c) = m1 n c) (h2 : ∀ n c, sumNC Q (ix2 n c) = m2 n c)
include h1 h2

/-- The raw moments of one group's four channels. -/
abbrev grpOf (m : Fin 16 → Fin 32 → EReal) (g : Fin 8) : Fin 16 → Fin 4 → EReal := fun n k => m n (Spec.chan g k)

omit h2 in
theorem meanC_spec (g : Fin 8) (k : Fin 4) : meanC P (ix1 (Spec.chan g k)) = Spec.meanc (grpOf m1 g) k := by
  rw [meanC_apply, Spec.z0_eq, zero_add]
  unfold Spec.meanc
  simp only [h1]

theorem aC_spec (g : Fin 8) (k : Fin 4) : aC P Q (ix1 (Spec.chan g k)) = Spec.ac (grpOf m1 g) (grpOf m2 g) k := by
  rw [aC_apply, meanC_spec P m1 h1, meanC_apply Q, Spec.z0_eq, zero_add]
  unfold Spec.ac
  simp only [h2, Spec.z0_eq]

theorem bC_spec (g : Fin 8) (k : Fin 4) : bC P Q (ix1 (Spec.chan g k)) = Spec.bc (grpOf m1 g) (grpOf m2 g) k := by
  rw [bC_apply, meanC_spec P m1 h1, aC_spec P Q m1 m2 h1 h2]
  unfold Spec.bc
  rw [Spec.z0_eq, zero_sub]

theorem sumY_spec (n : Fin 16) (g : Fin 8) (k : Fin 4) :
    sumY P Q (ix2 n (Spec.chan g k)) = Spec.sumy (grpOf m1 g) (grpOf m2 g) n k := by
  rw [sumY_apply, aC_spec P Q m1 m2 h1 h2, bC_spec P Q m1 m2 h1 h2, h1]
  rfl

theorem ssqY_spec (n : Fin 16) (g : Fin 8) (k : Fin 4) :
    ssqY P Q (ix2 n (Spec.chan g k)) = Spec.ssqy (grpOf m1 g) (grpOf m2 g) n k := by
  rw [ssqY_apply, aC_spec P Q m1 m2 h1 h2, bC_spec P Q m1 m2 h1 h2, h1, h2]
  rfl

theorem meanG_spec (n : Fin 16) (g : Fin 8) :
    meanOf (sumY P Q) (ix2 n g) = Spec.meang (grpOf m1 g) (grpOf m2 g) n := by
  rw [meanOf_apply, Spec.z0_eq, zero_add]
  unfold Spec.meang
  simp only [sumY_spec P Q m1 m2 h1 h2]

theorem invG_spec (n : Fin 16) (g : Fin 8) :
    invG P Q (ix2 n g) = Spec.invg (grpOf m1 g) (grpOf m2 g) n := by
  rw [invG_apply, meanG_spec P Q m1 m2 h1 h2, meanOf_apply, Spec.z0_eq, zero_add]
  unfold Spec.invg
  simp only [ssqY_spec P Q m1 m2 h1 h2, Spec.z0_eq]

theorem colA_spec (n : Fin 16) (g : Fin 8) (k : Fin 4) (u : Fin 1) :
    colA P Q wv (ix2 ⟨n.val * 32 + (g.val * 4 + k.val), by have := n.isLt; have := g.isLt; have := k.isLt; omega⟩ u)
      = Spec.arow (grpOf m1 g) (grpOf m2 g) (wv (ix1 g)) n k := by
  rw [colA_apply, invG_spec P Q m1 m2 h1 h2, aC_spec P Q m1 m2 h1 h2]
  rfl

theorem colB_spec (n : Fin 16) (g : Fin 8) (k : Fin 4) (u : Fin 1) :
    colB P Q wv bv (ix2 ⟨n.val * 32 + (g.val * 4 + k.val), by have := n.isLt; have := g.isLt; have := k.isLt; omega⟩ u)
      = Spec.brow (grpOf m1 g) (grpOf m2 g) (wv (ix1 g)) (bv (ix1 g)) n k := by
  rw [colB_apply, invG_spec P Q m1 m2 h1 h2, bC_spec P Q m1 m2 h1 h2, meanG_spec P Q m1 m2 h1 h2]
  rfl

end bridge

end Cert.ReferenceIdeal.Host

end
-- ==== Proof.RefStatsBody.lean ====
/-
  The statistics pass of the two-pass normalisation, one grid point at a time.

  The pass walks a [512,16384] array in blocks of 256 rows by 4096 columns, row block by row block and, inside a
  row block, lane block by lane block. It keeps two [256,128] accumulators per row block. At a point it reads its
  block as 32 chunks of 128 lanes (chunk k is columns 128 k … 128 k + 127) and adds each chunk, in order, to the
  first accumulator and each chunk's square, in order, to the second; at the first lane block of a row block both
  accumulators are first reset to the zero block. So after a point an accumulator is what it was before the point
  (or the zero block) with 32 terms added one after another: accN and accSq below, by recursion on the number of
  chunks added. This module says so for any float values; what the sums are over the extended reals, and what the
  two result arrays therefore hold, is the next module's.
-/
import proofs.«167197_g2000702654276885_pallasbulk_1018_2_alg».proof.Proof.Gen.ReferenceIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.ReferenceIdeal.Stats

open Cert.ReferenceIdeal Cert.ReferenceIdeal.Gen

variable {F : FTy → Type} [FloatOps F]

/-- The zero offsets of a whole-block access, however they are spelt. -/
theorem hz : (![0, 0] : Fin 2 → Nat) = fun _ => 0 := funext fun a => by fin_cases a <;> rfl

/-! ## Chunks and the two accumulations -/

/-- Chunk k of a [256,4096] block lies inside it: columns 128 k … 128 k + 127, for k < 32. -/
theorem inbK (k : ℕ) (h : k < 32) : ∀ a, (![0, 128 * k] : Fin 2 → Nat) a + S256x128.size a ≤ S256x4096.size a :=
  Rect.inb₂ (by show 0 + 256 ≤ 256; omega) (by show 128 * k + 128 ≤ 4096; omega)

/-- The k-th 128-lane chunk of a [256,4096] block, as the body loads it (k < 32; beyond, a constant of no use). -/
def chunkN (x : Vec F S256x4096 .f32) (k : ℕ) : Vec F S256x128 .f32 :=
  if h : k < 32 then View.ld x (Rect.unit (s := S256x4096) ![0, 128 * k] S256x128.size (inbK k h)) else fun _ => x (ix2 0 0)

/-- An accumulator after the first n chunks have been added to it, in order. -/
def accN (ch : ℕ → Vec F S256x128 .f32) : ℕ → Vec F S256x128 .f32 → FVec F S256x128 .f32
  | 0, a => a
  | n + 1, a => addf (accN ch n a) (ch n)

/-- An accumulator after the squares of the first n chunks have been added to it, in order. -/
def accSq (ch : ℕ → Vec F S256x128 .f32) : ℕ → Vec F S256x128 .f32 → FVec F S256x128 .f32
  | 0, a => a
  | n + 1, a => addf (accSq ch n a) (mulf (ch n) (ch n))

/-- The zero block the reset stores. -/
abbrev zeroV : Vec F S256x128 .f32 := broadcast S256x128 (Scalar.ofBits .f32 0x00000000#32)

/-! ## What each case of the body leaves in the two accumulators

The body stores each accumulator once, through its whole block, at the end (and, when it resets, once more at the
start); its loads read whole blocks, or a chunk of the input block. Read back, the last store's value is the chain
of 32 additions, which is the recursion above unrolled. -/

/-- Case B, output 1: the body leaves the accumulator it found with the block's 32 chunks added, in order. -/
theorem out_B_1 (c : Dev nD) (i : grid0.Coords) (a2 : Memref sig .tc .vmem S256x4096 .f32) (h2 : a2.IsWhole)
    (a3 : Memref sig .tc .vmem S256x128 .f32) (h3 : a3.IsWhole) (a4 : Memref sig .tc .vmem S256x128 .f32) (h4 : a4.IsWhole)
    (hc : ¬cond0_0 i) (x : Vec F S256x4096 .f32) (xo1 xo2 : Vec F S256x128 .f32) :
    out0_B_1 c i a2 h2 a3 h3 a4 h4 hc x xo1 xo2 = accN (chunkN x) 32 xo1 := by
  unfold out0_B_1
  rw [View.read_writes_eq_canon _ _ _ (cover0_B_1 c i a2 h2 a3 h3 a4 h4 hc x xo1 xo2)]
  unfold kernelRun0_B
  dsimp only
  sl_unfold_words
  rw [View.canon_unit_zero hz]
  simp only [View.readAt_eq_ld, h2.read_unread, h3.read_unread, h4.read_unread, View.ld_unit_zero (S := S256x128) hz]
  unfold k0_pay42 k0_pay31 k0_pay21 k0_pay9 k0_pay3 k0_pay4 k0_pay5 k0_pay6 k0_pay7 k0_pay8 k0_pay11 k0_pay12 k0_pay13 k0_pay14 k0_pay15 k0_pay16 k0_pay17 k0_pay18 k0_pay20 k0_pay23 k0_pay24 k0_pay25 k0_pay26 k0_pay27 k0_pay28 k0_pay29 k0_pay30 k0_pay33 k0_pay34 k0_pay35 k0_pay36 k0_pay37 k0_pay38 k0_pay39 k0_pay40 k0_pay41
  simp only [shapeCast_self]
  rfl

/-- Case B, output 2: the same with the chunks' squares. -/
theorem out_B_2 (c : Dev nD) (i : grid0.Coords) (a2 : Memref sig .tc .vmem S256x4096 .f32) (h2 : a2.IsWhole)
    (a3 : Memref sig .tc .vmem S256x128 .f32) (h3 : a3.IsWhole) (a4 : Memref sig .tc .vmem S256x128 .f32) (h4 : a4.IsWhole)
    (hc : ¬cond0_0 i) (x : Vec F S256x4096 .f32) (xo1 xo2 : Vec F S256x128 .f32) :
    out0_B_2 c i a2 h2 a3 h3 a4 h4 hc x xo1 xo2 = accSq (chunkN x) 32 xo2 := by
  unfold out0_B_2
  rw [View.read_writes_eq_canon _ _ _ (cover0_B_2 c i a2 h2 a3 h3 a4 h4 hc x xo1 xo2)]
  unfold kernelRun0_B
  dsimp only
  sl_unfold_words
  rw [View.canon_unit_zero hz]
  simp only [View.readAt_eq_ld, h2.read_unread, h3.read_unread, h4.read_unread, View.ld_unit_zero (S := S256x128) hz]
  unfold k0_pay43 k0_pay32 k0_pay19 k0_pay22 k0_pay10 k0_pay3 k0_pay4 k0_pay5 k0_pay6 k0_pay7 k0_pay8 k0_pay11 k0_pay12 k0_pay13 k0_pay14 k0_pay15 k0_pay16 k0_pay17 k0_pay18 k0_pay20 k0_pay23 k0_pay24 k0_pay25 k0_pay26 k0_pay27 k0_pay28 k0_pay29 k0_pay30 k0_pay33 k0_pay34 k0_pay35 k0_pay36 k0_pay37 k0_pay38 k0_pay39 k0_pay40 k0_pay41
  simp only [shapeCast_self]
  rfl

/-- Case A, output 1: the body stores the zero block, reads it back, and leaves it with the block's 32 chunks added. -/
theorem out_A_1 (c : Dev nD) (i : grid0.Coords) (a2 : Memref sig .tc .vmem S256x4096 .f32) (h2 : a2.IsWhole)
    (a3 : Memref sig .tc .vmem S256x128 .f32) (h3 : a3.IsWhole) (a4 : Memref sig .tc .vmem S256x128 .f32) (h4 : a4.IsWhole)
    (hc : cond0_0 i) (x : Vec F S256x4096 .f32) :
    out0_A_1 c i a2 h2 a3 h3 a4 h4 hc x = accN (chunkN x) 32 zeroV := by
  unfold out0_A_1
  rw [View.read_writes_eq_canon _ _ _ (cover0_A_1 c i a2 h2 a3 h3 a4 h4 hc x)]
  unfold kernelRun0_A
  dsimp only
  sl_unfold_words
  rw [View.canon_cons_unit_zero (S := S256x128) hz, View.readCov_unit_zero (S := S256x128) _ hz]
  simp only [View.readAt_eq_ld, h2.read_unread, View.ld_unit_zero (S := S256x128) hz]
  unfold k0_pay1 k0_pay42 k0_pay31 k0_pay21 k0_pay9 k0_pay3 k0_pay4 k0_pay5 k0_pay6 k0_pay7 k0_pay8 k0_pay11 k0_pay12 k0_pay13 k0_pay14 k0_pay15 k0_pay16 k0_pay17 k0_pay18 k0_pay20 k0_pay23 k0_pay24 k0_pay25 k0_pay26 k0_pay27 k0_pay28 k0_pay29 k0_pay30 k0_pay33 k0_pay34 k0_pay35 k0_pay36 k0_pay37 k0_pay38 k0_pay39 k0_pay40 k0_pay41
  simp only [shapeCast_self]
  rfl

/-- Case A, output 2: the same with the chunks' squares. -/
theorem out_A_2 (c : Dev nD) (i : grid0.Coords) (a2 : Memref sig .tc .vmem S256x4096 .f32) (h2 : a2.IsWhole)
    (a3 : Memref sig .tc .vmem S256x128 .f32) (h3 : a3.IsWhole) (a4 : Memref sig .tc .vmem S256x128 .f32) (h4 : a4.IsWhole)
    (hc : cond0_0 i) (x : Vec F S256x4096 .f32) :
    out0_A_2 c i a2 h2 a3 h3 a4 h4 hc x = accSq (chunkN x) 32 zeroV := by
  unfold out0_A_2
  rw [View.read_writes_eq_canon _ _ _ (cover0_A_2 c i a2 h2 a3 h3 a4 h4 hc x)]
  unfold kernelRun0_A
  dsimp only
  sl_unfold_words
  rw [View.canon_cons_unit_zero (S := S256x128) hz, View.readCov_unit_zero (S := S256x128) _ hz]
  simp only [View.readAt_eq_ld, h2.read_unread, View.ld_unit_zero (S := S256x128) hz]
  unfold k0_pay2 k0_pay43 k0_pay32 k0_pay19 k0_pay22 k0_pay10 k0_pay3 k0_pay4 k0_pay5 k0_pay6 k0_pay7 k0_pay8 k0_pay11 k0_pay12 k0_pay13 k0_pay14 k0_pay15 k0_pay16 k0_pay17 k0_pay18 k0_pay20 k0_pay23 k0_pay24 k0_pay25 k0_pay26 k0_pay27 k0_pay28 k0_pay29 k0_pay30 k0_pay33 k0_pay34 k0_pay35 k0_pay36 k0_pay37 k0_pay38 k0_pay39 k0_pay40 k0_pay41
  simp only [shapeCast_self]
  rfl

/-! ## The two outputs after a point, case by case -/

section Pairs
variable (V : (c : Dev nD) → (b : Ref sig .tc) → Buf (Elt F) ((c : Thread nD τ).loc b))

/-- At the first point of a row block both accumulators restart from the zero block. -/
theorem outsAt_A (c : Dev nD) (t : Fin cfg0.N) (h0 : t.val % 4 = 0) :
    outsAt0 V c t.val t.isLt
      = (accN (chunkN (iblk0 V c 0 t)) 32 zeroV, accSq (chunkN (iblk0 V c 0 t)) 32 zeroV) := by
  rw [outsAt0_A V c t h0]
  exact Prod.ext
    (out_A_1 c (grid0.coords t) (ms0_0 t) (hs0_0 t) (ms0_1 t) (hs0_1 t) (ms0_2 t) (hs0_2 t) ((hcond0_0 t).mpr h0) (iblk0 V c 0 t))
    (out_A_2 c (grid0.coords t) (ms0_0 t) (hs0_0 t) (ms0_1 t) (hs0_1 t) (ms0_2 t) (hs0_2 t) ((hcond0_0 t).mpr h0) (iblk0 V c 0 t))

/-- At a later point of a row block both accumulators continue from what the point before left. -/
theorem outsAt_B (c : Dev nD) (t : Fin cfg0.N) (h0 : ¬t.val % 4 = 0) :
    outsAt0 V c t.val t.isLt
      = (accN (chunkN (iblk0 V c 0 t)) 32 (outsAt0 V c (t.val - 1) (Nat.lt_of_le_of_lt (Nat.sub_le _ _) t.isLt)).1,
         accSq (chunkN (iblk0 V c 0 t)) 32 (outsAt0 V c (t.val - 1) (Nat.lt_of_le_of_lt (Nat.sub_le _ _) t.isLt)).2) := by
  rw [outsAt0_B V c t h0]
  exact Prod.ext
    (out_B_1 c (grid0.coords t) (ms0_0 t) (hs0_0 t) (ms0_1 t) (hs0_1 t) (ms0_2 t) (hs0_2 t) (fun h => h0 ((hcond0_0 t).mp h)) (iblk0 V c 0 t)
      (outsAt0 V c (t.val - 1) (Nat.lt_of_le_of_lt (Nat.sub_le _ _) t.isLt)).1 (outsAt0 V c (t.val - 1) (Nat.lt_of_le_of_lt (Nat.sub_le _ _) t.isLt)).2)
    (out_B_2 c (grid0.coords t) (ms0_0 t) (hs0_0 t) (ms0_1 t) (hs0_1 t) (ms0_2 t) (hs0_2 t) (fun h => h0 ((hcond0_0 t).mp h)) (iblk0 V c 0 t)
      (outsAt0 V c (t.val - 1) (Nat.lt_of_le_of_lt (Nat.sub_le _ _) t.isLt)).1 (outsAt0 V c (t.val - 1) (Nat.lt_of_le_of_lt (Nat.sub_le _ _) t.isLt)).2)

end Pairs

end Cert.ReferenceIdeal.Stats

end
-- ==== Proof.RefStats.lean ====
/-
  The statistics pass of the two-pass normalisation: what its two result arrays hold, and their row sums.

  The pass reads x as a [512,16384] array (a row is one (sample, channel) pair, a column one spatial position) in
  blocks of 256 rows by 4096 columns and writes two [512,128] arrays. Over the extended reals, entry (R, l) of the
  first is the zero word plus the row's entries at columns 4096 j + 128 k + l, j < 4, k < 32 — lane l of each of the
  row's 128 chunks of 128 columns — and the second holds the same sums of squares. The 128 lanes of a row therefore
  add up to the row's sum over all 16384 columns (column 128 p + q with p = 32 j + k, q = l), and to its sum of
  squares: rowsum1 and rowsum2, the two facts the per-channel moments are computed from.

  The order of the argument: a chunk of a block read at an index; the two accumulations as sums; a block's entries
  as the array's; the accumulators after point n by induction on n (a row block's first point restarts them, each
  later point adds its lane block's 32 chunks); the write-backs at the last lane block of each row block, which
  together cover the arrays; the regrouping of the sums, which uses only that addition on the extended reals is
  commutative and associative.
-/
import proofs.«167197_g2000702654276885_pallasbulk_1018_2_alg».proof.Proof.RefStatsBody
import proofs.«167197_g2000702654276885_pallasbulk_1018_2_alg».proof.Proof.Spec

noncomputable section

open Idealize.ShloMosaic Idealize.ShloMosaic.TcCoe Idealize.SL.Sem
open Idealize.ShloMosaic.Pipeline (Dat)
open Idealize.ShloMosaic.ValueIdx

namespace Cert.ReferenceIdeal.Stats

open Cert.ReferenceIdeal Cert.ReferenceIdeal.Gen

variable (V : (c : Dev nD) → (b : Ref sig .tc) → Buf (Elt Ideal) ((c : Thread nD τ).loc b))

/-! ## The chunks and the two accumulations at an index, over the extended reals -/

/-- Chunk k of a block at row r, lane l is the block at row r, column 128 k + l. -/
theorem chunkN_apply (x : Vec Ideal S256x4096 .f32) (k : ℕ) (hk : k < 32) (r : Fin 256) (l : Fin 128) :
    chunkN x k (ix2 r l) = x (ix2 r ⟨128 * k + l.val, by have := l.isLt; omega⟩) := by
  unfold chunkN
  rw [dif_pos hk]
  show x _ = x _
  refine congrArg x ?_
  funext a
  apply Fin.ext
  match a with
  | ⟨0, _⟩ => show 0 + 1 * r.val = r.val; omega
  | ⟨1, _⟩ => show 128 * k + 1 * l.val = 128 * k + l.val; omega

/-- Adding n chunks in order adds their sum. -/
theorem accN_apply (ch : ℕ → Vec Ideal S256x128 .f32) (n : ℕ) (a : Vec Ideal S256x128 .f32) (y : S256x128.Idx) :
    accN ch n a y = a y + ∑ k ∈ Finset.range n, ch k y := by
  induction n with
  | zero => show a y = a y + ∑ k ∈ Finset.range 0, ch k y; rw [Finset.sum_range_zero, add_zero]
  | succ n ih =>
    show accN ch n a y + ch n y = _
    rw [ih, Finset.sum_range_succ, add_assoc]

/-- Adding the squares of n chunks in order adds the sum of the squares. -/
theorem accSq_apply (ch : ℕ → Vec Ideal S256x128 .f32) (n : ℕ) (a : Vec Ideal S256x128 .f32) (y : S256x128.Idx) :
    accSq ch n a y = a y + ∑ k ∈ Finset.range n, ch k y * ch k y := by
  induction n with
  | zero => show a y = a y + ∑ k ∈ Finset.range 0, ch k y * ch k y; rw [Finset.sum_range_zero, add_zero]
  | succ n ih =>
    show accSq ch n a y + ch n y * ch n y = _
    rw [ih, Finset.sum_range_succ, add_assoc]

/-! ## The input blocks, read off the array -/

/-- Point t works on row block t / 4 and lane block t % 4; both outputs' block is the row block. -/
theorem idx_facts : ∀ t : Fin cfg0.N,
    win0_0.index t (0 : Fin 2) = t.val / 4 ∧ win0_0.index t (1 : Fin 2) = t.val % 4
      ∧ win0_1.index t (0 : Fin 2) = t.val / 4 ∧ win0_1.index t (1 : Fin 2) = 0
      ∧ win0_2.index t (0 : Fin 2) = t.val / 4 ∧ win0_2.index t (1 : Fin 2) = 0 :=
  (by decide +kernel : ∀ t : Fin grid0.N,
    win0_0.index t (0 : Fin 2) = t.val / 4 ∧ win0_0.index t (1 : Fin 2) = t.val % 4
      ∧ win0_1.index t (0 : Fin 2) = t.val / 4 ∧ win0_1.index t (1 : Fin 2) = 0
      ∧ win0_2.index t (0 : Fin 2) = t.val / 4 ∧ win0_2.index t (1 : Fin 2) = 0)

/-- The [512,16384] array at row R, column C (zero outside it, where nothing below looks). -/
def arrAtN (X : Vec Ideal S512x16384 .f32) (R C : ℕ) : EReal :=
  if h : R < 512 ∧ C < 16384 then X (ix2 ⟨R, h.1⟩ ⟨C, h.2⟩) else 0

/-- Entry (r, m) of the block at point t is the array's entry at row 256 (t / 4) + r, column 4096 (t % 4) + m. -/
theorem iblk_apply (c : Dev nD) (t : Fin cfg0.N) (r : Fin 256) (m : Fin 4096) :
    (iblk0 V c 0 t : Vec Ideal S256x4096 .f32) (ix2 r m)
      = arrAtN (V c main_v0) (256 * (t.val / 4) + r.val) (4096 * (t.val % 4) + m.val) := by
  have hN : t.val < 8 := lt_of_lt_of_eq t.isLt (show cfg0.N = 8 from N_0)
  have hr := r.isLt
  have hm := m.isLt
  have hR : 256 * (t.val / 4) + r.val < 512 := by omega
  have hC : 4096 * (t.val % 4) + m.val < 16384 := by omega
  unfold arrAtN
  rw [dif_pos ⟨hR, hC⟩]
  unfold iblk0
  rw [View.read_apply]
  show V c main_v0 _ = V c main_v0 _
  refine congrArg (V c main_v0) ?_
  obtain ⟨i0, i1, -⟩ := idx_facts t
  funext a
  apply Fin.ext
  match a with
  | ⟨0, _⟩ => show win0_0.index t 0 * 256 + 1 * r.val = 256 * (t.val / 4) + r.val; rw [i0]; omega
  | ⟨1, _⟩ => show win0_0.index t 1 * 4096 + 1 * m.val = 4096 * (t.val % 4) + m.val; rw [i1]; omega

/-- The 32 chunks of the block at point t, at row r and lane l, are the array's entries at lane l of the 32
    chunks of lane block t % 4. -/
theorem point_sum (c : Dev nD) (t : Fin cfg0.N) (r : Fin 256) (l : Fin 128) :
    ∑ k ∈ Finset.range 32, chunkN (iblk0 V c 0 t) k (ix2 r l)
      = ∑ k ∈ Finset.range 32,
          arrAtN (V c main_v0) (256 * (t.val / 4) + r.val) (4096 * (t.val % 4) + (128 * k + l.val)) :=
  Finset.sum_congr rfl fun k hk => by
    rw [chunkN_apply _ k (Finset.mem_range.mp hk) r l]
    exact iblk_apply V c t r _

/-- The same for the squares. -/
theorem point_sq (c : Dev nD) (t : Fin cfg0.N) (r : Fin 256) (l : Fin 128) :
    ∑ k ∈ Finset.range 32, chunkN (iblk0 V c 0 t) k (ix2 r l) * chunkN (iblk0 V c 0 t) k (ix2 r l)
      = ∑ k ∈ Finset.range 32,
          arrAtN (V c main_v0) (256 * (t.val / 4) + r.val) (4096 * (t.val % 4) + (128 * k + l.val))
            * arrAtN (V c main_v0) (256 * (t.val / 4) + r.val) (4096 * (t.val % 4) + (128 * k + l.val)) :=
  Finset.sum_congr rfl fun k hk => by
    rw [chunkN_apply _ k (Finset.mem_range.mp hk) r l]
    exact congrArg (fun e => e * e) (iblk_apply V c t r _)

/-! ## The accumulators after point n -/

/-- Lane l of row r of the first accumulator after point n: the zero word, then lane l of the 32 chunks of each of the
    lane blocks 0 … n % 4 of row block n / 4. -/
def part1 (X : Vec Ideal S512x16384 .f32) (n r l : ℕ) : EReal :=
  Spec.z0 + ∑ j ∈ Finset.range (n % 4 + 1), ∑ k ∈ Finset.range 32,
    arrAtN X (256 * (n / 4) + r) (4096 * j + (128 * k + l))

/-- The second accumulator: the same with squares. -/
def part2 (X : Vec Ideal S512x16384 .f32) (n r l : ℕ) : EReal :=
  Spec.z0 + ∑ j ∈ Finset.range (n % 4 + 1), ∑ k ∈ Finset.range 32,
    arrAtN X (256 * (n / 4) + r) (4096 * j + (128 * k + l)) * arrAtN X (256 * (n / 4) + r) (4096 * j + (128 * k + l))

theorem part1_A (X : Vec Ideal S512x16384 .f32) (n r l : ℕ) (h0 : n % 4 = 0) :
    part1 X n r l = Spec.z0 + ∑ k ∈ Finset.range 32, arrAtN X (256 * (n / 4) + r) (4096 * (n % 4) + (128 * k + l)) := by
  unfold part1
  rw [h0, Finset.sum_range_one]

theorem part2_A (X : Vec Ideal S512x16384 .f32) (n r l : ℕ) (h0 : n % 4 = 0) :
    part2 X n r l = Spec.z0 + ∑ k ∈ Finset.range 32,
      arrAtN X (256 * (n / 4) + r) (4096 * (n % 4) + (128 * k + l)) * arrAtN X (256 * (n / 4) + r) (4096 * (n % 4) + (128 * k + l)) := by
  unfold part2
  rw [h0, Finset.sum_range_one]

theorem part1_B (X : Vec Ideal S512x16384 .f32) (n r l : ℕ) (h0 : ¬(n + 1) % 4 = 0) :
    part1 X (n + 1) r l = part1 X n r l
      + ∑ k ∈ Finset.range 32, arrAtN X (256 * ((n + 1) / 4) + r) (4096 * ((n + 1) % 4) + (128 * k + l)) := by
  have e1 : (n + 1) % 4 = n % 4 + 1 := by omega
  have e2 : (n + 1) / 4 = n / 4 := by omega
  unfold part1
  rw [e1, e2, Finset.sum_range_succ, add_assoc]

theorem part2_B (X : Vec Ideal S512x16384 .f32) (n r l : ℕ) (h0 : ¬(n + 1) % 4 = 0) :
    part2 X (n + 1) r l = part2 X n r l
      + ∑ k ∈ Finset.range 32, arrAtN X (256 * ((n + 1) / 4) + r) (4096 * ((n + 1) % 4) + (128 * k + l))
          * arrAtN X (256 * ((n + 1) / 4) + r) (4096 * ((n + 1) % 4) + (128 * k + l)) := by
  have e1 : (n + 1) % 4 = n % 4 + 1 := by omega
  have e2 : (n + 1) / 4 = n / 4 := by omega
  unfold part2
  rw [e1, e2, Finset.sum_range_succ, add_assoc]

/-- What the two accumulators hold after point n, lane by lane — by induction on the point. -/
theorem outs_eq (c : Dev nD) : ∀ (n : ℕ) (h : n < cfg0.N) (r : Fin 256) (l : Fin 128),
    (outsAt0 V c n h).1 (ix2 r l) = part1 (V c main_v0) n r.val l.val
      ∧ (outsAt0 V c n h).2 (ix2 r l) = part2 (V c main_v0) n r.val l.val
  | 0, h, r, l => by
    have e : outsAt0 V c 0 h = _ := outsAt_A V c ⟨0, h⟩ rfl
    rw [e, part1_A _ 0 _ _ rfl, part2_A _ 0 _ _ rfl]
    exact ⟨(accN_apply _ 32 _ _).trans (congrArg (Spec.z0 + ·) (point_sum V c ⟨0, h⟩ r l)),
      (accSq_apply _ 32 _ _).trans (congrArg (Spec.z0 + ·) (point_sq V c ⟨0, h⟩ r l))⟩
  | n + 1, h, r, l => by
    have ih := outs_eq c n (Nat.lt_of_succ_lt h) r l
    by_cases h0 : (n + 1) % 4 = 0
    · have e : outsAt0 V c (n + 1) h = _ := outsAt_A V c ⟨n + 1, h⟩ h0
      rw [e, part1_A _ (n + 1) _ _ h0, part2_A _ (n + 1) _ _ h0]
      exact ⟨(accN_apply _ 32 _ _).trans (congrArg (Spec.z0 + ·) (point_sum V c ⟨n + 1, h⟩ r l)),
        (accSq_apply _ 32 _ _).trans (congrArg (Spec.z0 + ·) (point_sq V c ⟨n + 1, h⟩ r l))⟩
    · have e : outsAt0 V c (n + 1) h = _ := outsAt_B V c ⟨n + 1, h⟩ h0
      rw [e, part1_B _ n _ _ h0, part2_B _ n _ _ h0]
      exact ⟨(accN_apply _ 32 _ _).trans (congrArg₂ (· + ·) ih.1 (point_sum V c ⟨n + 1, h⟩ r l)),
        (accSq_apply _ 32 _ _).trans (congrArg₂ (· + ·) ih.2 (point_sq V c ⟨n + 1, h⟩ r l))⟩

/-! ## The two result arrays -/

/-- The first result array: entry (R, l) is the zero word plus lane l of each of the 128 chunks of row R,
    lane block by lane block. -/
def arr1 (X : Vec Ideal S512x16384 .f32) : Vec Ideal S512x128 .f32 := fun i =>
  Spec.z0 + ∑ j ∈ Finset.range 4, ∑ k ∈ Finset.range 32, arrAtN X (i 0).val (4096 * j + (128 * k + (i 1).val))

/-- The second: the same with squares. -/
def arr2 (X : Vec Ideal S512x16384 .f32) : Vec Ideal S512x128 .f32 := fun i =>
  Spec.z0 + ∑ j ∈ Finset.range 4, ∑ k ∈ Finset.range 32,
    arrAtN X (i 0).val (4096 * j + (128 * k + (i 1).val)) * arrAtN X (i 0).val (4096 * j + (128 * k + (i 1).val))

theorem arr1_apply (X : Vec Ideal S512x16384 .f32) (i : S512x128.Idx) (R L : ℕ) (h0 : (i 0).val = R) (h1 : (i 1).val = L) :
    arr1 X i = Spec.z0 + ∑ j ∈ Finset.range 4, ∑ k ∈ Finset.range 32, arrAtN X R (4096 * j + (128 * k + L)) := by
  subst h0 h1; rfl

theorem arr2_apply (X : Vec Ideal S512x16384 .f32) (i : S512x128.Idx) (R L : ℕ) (h0 : (i 0).val = R) (h1 : (i 1).val = L) :
    arr2 X i = Spec.z0 + ∑ j ∈ Finset.range 4, ∑ k ∈ Finset.range 32,
      arrAtN X R (4096 * j + (128 * k + L)) * arrAtN X R (4096 * j + (128 * k + L)) := by
  subst h0 h1; rfl

/-- After the last lane block of a row block the accumulators hold all four lane blocks. -/
theorem part1_last (X : Vec Ideal S512x16384 .f32) (n r l : ℕ) (h3 : n % 4 = 3) :
    part1 X n r l = Spec.z0 + ∑ j ∈ Finset.range 4, ∑ k ∈ Finset.range 32, arrAtN X (256 * (n / 4) + r) (4096 * j + (128 * k + l)) := by
  have e : n % 4 + 1 = 4 := by omega
  unfold part1
  rw [e]

theorem part2_last (X : Vec Ideal S512x16384 .f32) (n r l : ℕ) (h3 : n % 4 = 3) :
    part2 X n r l = Spec.z0 + ∑ j ∈ Finset.range 4, ∑ k ∈ Finset.range 32,
      arrAtN X (256 * (n / 4) + r) (4096 * j + (128 * k + l)) * arrAtN X (256 * (n / 4) + r) (4096 * j + (128 * k + l)) := by
  have e : n % 4 + 1 = 4 := by omega
  unfold part2
  rw [e]

/-- The result arrays as contents of their buffers. -/
abbrev res1 (c : Dev nD) : Buf (Elt Ideal) ((c : Thread nD τ).loc main_v1_0) := arr1 (V c main_v0)
abbrev res2 (c : Dev nD) : Buf (Elt Ideal) ((c : Thread nD τ).loc main_v1_1) := arr2 (V c main_v0)

/-- What a write-back of output 1 writes (at the last lane block of a row block) is that row block of the first array. -/
theorem flushed1_eq (c : Dev nD) (t : Fin cfg0.N) (hf : (cfg0.win 1).flush t = true) :
    (dat0 V c).flushed 1 t = ((cfg0.win 1).blk t).view.read (Elt Ideal) (res1 V c) := by
  have hN : t.val < 8 := lt_of_lt_of_eq t.isLt (show cfg0.N = 8 from N_0)
  have h3 : t.val % 4 = 3 := (flush0_1 t).mp hf
  obtain ⟨-, -, i0, i1, -, -⟩ := idx_facts t
  show (cfg0.win 1).cut (grid0.coords t) ((dat0 V c).after 1 t) = _
  rw [after0_1]
  funext y
  rw [View.read_apply]
  obtain ⟨r, l, rfl⟩ : ∃ (r : Fin 256) (l : Fin 128), y = ix2 r l := ⟨y 0, y 1, eq_ix2 y⟩
  have hr := r.isLt
  refine ((outs_eq V c t.val t.isLt r l).1.trans (part1_last _ _ _ _ h3)).trans (arr1_apply _ _ _ _ ?_ ?_).symm
  · show win0_1.index t 0 * 256 + 1 * r.val = 256 * (t.val / 4) + r.val; rw [i0]; omega
  · show win0_1.index t 1 * 128 + 1 * l.val = l.val; rw [i1]; omega

theorem flushed2_eq (c : Dev nD) (t : Fin cfg0.N) (hf : (cfg0.win 2).flush t = true) :
    (dat0 V c).flushed 2 t = ((cfg0.win 2).blk t).view.read (Elt Ideal) (res2 V c) := by
  have hN : t.val < 8 := lt_of_lt_of_eq t.isLt (show cfg0.N = 8 from N_0)
  have h3 : t.val % 4 = 3 := (flush0_2 t).mp hf
  obtain ⟨-, -, -, -, i0, i1⟩ := idx_facts t
  show (cfg0.win 2).cut (grid0.coords t) ((dat0 V c).after 2 t) = _
  rw [after0_2]
  funext y
  rw [View.read_apply]
  obtain ⟨r, l, rfl⟩ : ∃ (r : Fin 256) (l : Fin 128), y = ix2 r l := ⟨y 0, y 1, eq_ix2 y⟩
  have hr := r.isLt
  refine ((outs_eq V c t.val t.isLt r l).2.trans (part2_last _ _ _ _ h3)).trans (arr2_apply _ _ _ _ ?_ ?_).symm
  · show win0_2.index t 0 * 256 + 1 * r.val = 256 * (t.val / 4) + r.val; rw [i0]; omega
  · show win0_2.index t 1 * 128 + 1 * l.val = l.val; rw [i1]; omega

/-! ## The flushed blocks cover the result arrays -/

/-- An index of a result array is in point t's block iff each coordinate is in the block's range on its axis. -/
theorem mem_blk1 (t : Fin cfg0.N) (i : S512x128.Idx) :
    i ∈ ((cfg0.win 1).blk t).view.set ↔ ∀ a : Fin 2, win0_1.index t a * S256x128.size a ≤ (i a).val
      ∧ (i a).val < win0_1.index t a * S256x128.size a + S256x128.size a := by
  show i ∈ ((View.whole main_v1_0).slice (win0_1.rect t)).set ↔ _
  rw [View.set_slice_whole, Rect.mem_set_unit]
  exact Iff.rfl

theorem mem_blk2 (t : Fin cfg0.N) (i : S512x128.Idx) :
    i ∈ ((cfg0.win 2).blk t).view.set ↔ ∀ a : Fin 2, win0_2.index t a * S256x128.size a ≤ (i a).val
      ∧ (i a).val < win0_2.index t a * S256x128.size a + S256x128.size a := by
  show i ∈ ((View.whole main_v1_1).slice (win0_2.rect t)).set ↔ _
  rw [View.set_slice_whole, Rect.mem_set_unit]
  exact Iff.rfl

/-- Rows 0 … 255 are written back at point 3, rows 256 … 511 at point 7. -/
theorem cover1 (i : S512x128.Idx) :
    ∃ t : Fin cfg0.N, (cfg0.win 1).flush t = true ∧ i ∈ ((cfg0.win 1).blk t).view.set := by
  have hi0 : (i 0).val < 512 := (i 0).isLt
  have hi1 : (i 1).val < 128 := (i 1).isLt
  by_cases h : (i 0).val < 256
  · obtain ⟨-, -, e0, e1, -, -⟩ := idx_facts t0_3
    have hv : t0_3.val = 3 := rfl
    refine ⟨t0_3, (flush0_1 t0_3).mpr rfl, ?_⟩
    rw [mem_blk1]
    intro a
    match a with
    | ⟨0, _⟩ => show win0_1.index t0_3 (0 : Fin 2) * 256 ≤ (i 0).val ∧ (i 0).val < win0_1.index t0_3 (0 : Fin 2) * 256 + 256; rw [e0, hv]; omega
    | ⟨1, _⟩ => show win0_1.index t0_3 (1 : Fin 2) * 128 ≤ (i 1).val ∧ (i 1).val < win0_1.index t0_3 (1 : Fin 2) * 128 + 128; rw [e1]; omega
  · obtain ⟨-, -, e0, e1, -, -⟩ := idx_facts t0_7
    have hv : t0_7.val = 7 := rfl
    refine ⟨t0_7, (flush0_1 t0_7).mpr rfl, ?_⟩
    rw [mem_blk1]
    intro a
    match a with
    | ⟨0, _⟩ => show win0_1.index t0_7 (0 : Fin 2) * 256 ≤ (i 0).val ∧ (i 0).val < win0_1.index t0_7 (0 : Fin 2) * 256 + 256; rw [e0, hv]; omega
    | ⟨1, _⟩ => show win0_1.index t0_7 (1 : Fin 2) * 128 ≤ (i 1).val ∧ (i 1).val < win0_1.index t0_7 (1 : Fin 2) * 128 + 128; rw [e1]; omega

theorem cover2 (i : S512x128.Idx) :
    ∃ t : Fin cfg0.N, (cfg0.win 2).flush t = true ∧ i ∈ ((cfg0.win 2).blk t).view.set := by
  have hi0 : (i 0).val < 512 := (i 0).isLt
  have hi1 : (i 1).val < 128 := (i 1).isLt
  by_cases h : (i 0).val < 256
  · obtain ⟨-, -, -, -, e0, e1⟩ := idx_facts t0_3
    have hv : t0_3.val = 3 := rfl
    refine ⟨t0_3, (flush0_2 t0_3).mpr rfl, ?_⟩
    rw [mem_blk2]
    intro a
    match a with
    | ⟨0, _⟩ => show win0_2.index t0_3 (0 : Fin 2) * 256 ≤ (i 0).val ∧ (i 0).val < win0_2.index t0_3 (0 : Fin 2) * 256 + 256; rw [e0, hv]; omega
    | ⟨1, _⟩ => show win0_2.index t0_3 (1 : Fin 2) * 128 ≤ (i 1).val ∧ (i 1).val < win0_2.index t0_3 (1 : Fin 2) * 128 + 128; rw [e1]; omega
  · obtain ⟨-, -, -, -, e0, e1⟩ := idx_facts t0_7
    have hv : t0_7.val = 7 := rfl
    refine ⟨t0_7, (flush0_2 t0_7).mpr rfl, ?_⟩
    rw [mem_blk2]
    intro a
    match a with
    | ⟨0, _⟩ => show win0_2.index t0_7 (0 : Fin 2) * 256 ≤ (i 0).val ∧ (i 0).val < win0_2.index t0_7 (0 : Fin 2) * 256 + 256; rw [e0, hv]; omega
    | ⟨1, _⟩ => show win0_2.index t0_7 (1 : Fin 2) * 128 ≤ (i 1).val ∧ (i 1).val < win0_2.index t0_7 (1 : Fin 2) * 128 + 128; rw [e1]; omega

/-- So the two result arrays end holding arr1 and arr2 of the input array. -/
theorem final1 (c : Dev nD) : (dat0 V c).arrAt 1 cfg0.N = res1 V c :=
  (dat0 V c).arrAt_eq_of_cover 1 (res1 V c) (flushed1_eq V c) cover1

theorem final2 (c : Dev nD) : (dat0 V c).arrAt 2 cfg0.N = res2 V c :=
  (dat0 V c).arrAt_eq_of_cover 2 (res2 V c) (flushed2_eq V c) cover2

/-! ## A row's 128 lanes, summed

Lane l of a row collects columns 4096 j + 128 k + l over the lane blocks j and chunks k; with p = 32 j + k that is
column 128 p + l, so the 128 lanes together are the row's 16384 columns, each once. Addition on the extended reals
is commutative and associative, which is all the regrouping uses. -/

/-- Column 4096 j + (128 k + l) of row r, with j < 4, k < 32, l < 128, is inside the array. -/
theorem arrAtN_in (X : Vec Ideal S512x16384 .f32) (r : Fin 512) (j : Fin 4) (k : Fin 32) (l : Fin 128) :
    arrAtN X r.val (4096 * j.val + (128 * k.val + l.val))
      = X (ix2 r ⟨(j.val * 32 + k.val) * 128 + l.val, by have := j.isLt; have := k.isLt; have := l.isLt; omega⟩) := by
  have hj := j.isLt
  have hk := k.isLt
  have hl := l.isLt
  unfold arrAtN
  rw [dif_pos ⟨r.isLt, by omega⟩]
  refine congrArg X ?_
  funext a
  apply Fin.ext
  match a with
  | ⟨0, _⟩ => rfl
  | ⟨1, _⟩ => show 4096 * j.val + (128 * k.val + l.val) = (j.val * 32 + k.val) * 128 + l.val; omega

theorem arr1_rowsum (X : Vec Ideal S512x16384 .f32) (r : Fin 512) :
    ∑ l : Fin 128, arr1 X (ix2 r l)
      = ∑ p : Fin 128, ∑ q : Fin 128, X (ix2 r ⟨p.val * 128 + q.val, by have := p.isLt; have := q.isLt; omega⟩) := by
  rw [Spec.sum_bands (fun p : Fin 128 => ∑ q : Fin 128, X (ix2 r ⟨p.val * 128 + q.val, by have := p.isLt; have := q.isLt; omega⟩))]
  show ∑ l : Fin 128, (Spec.z0 + ∑ j ∈ Finset.range 4, ∑ k ∈ Finset.range 32, arrAtN X r.val (4096 * j + (128 * k + l.val))) = _
  rw [Finset.sum_add_distrib, Spec.z0_eq, Finset.sum_const_zero, zero_add, Finset.sum_comm, Finset.sum_range]
  refine Finset.sum_congr rfl fun j _ => ?_
  rw [Finset.sum_comm, Finset.sum_range]
  exact Finset.sum_congr rfl fun k _ => Finset.sum_congr rfl fun l _ => arrAtN_in X r j k l

theorem arr2_rowsum (X : Vec Ideal S512x16384 .f32) (r : Fin 512) :
    ∑ l : Fin 128, arr2 X (ix2 r l)
      = ∑ p : Fin 128, ∑ q : Fin 128, X (ix2 r ⟨p.val * 128 + q.val, by have := p.isLt; have := q.isLt; omega⟩)
          * X (ix2 r ⟨p.val * 128 + q.val, by have := p.isLt; have := q.isLt; omega⟩) := by
  rw [Spec.sum_bands (fun p : Fin 128 => ∑ q : Fin 128, X (ix2 r ⟨p.val * 128 + q.val, by have := p.isLt; have := q.isLt; omega⟩)
    * X (ix2 r ⟨p.val * 128 + q.val, by have := p.isLt; have := q.isLt; omega⟩))]
  show ∑ l : Fin 128, (Spec.z0 + ∑ j ∈ Finset.range 4, ∑ k ∈ Finset.range 32,
    arrAtN X r.val (4096 * j + (128 * k + l.val)) * arrAtN X r.val (4096 * j + (128 * k + l.val))) = _
  rw [Finset.sum_add_distrib, Spec.z0_eq, Finset.sum_const_zero, zero_add, Finset.sum_comm, Finset.sum_range]
  refine Finset.sum_congr rfl fun j _ => ?_
  rw [Finset.sum_comm, Finset.sum_range]
  exact Finset.sum_congr rfl fun k _ => Finset.sum_congr rfl fun l _ => congrArg (fun e => e * e) (arrAtN_in X r j k l)

/-! ## The two row sums of the result arrays

The sums and the product are the extended reals': the carrier is named, because an array's entry type is spelt
through its buffer and is only the extended reals after unfolding. -/

/-- The 128 lanes of row r of the first result array add up to the row's sum over its 16384 columns. -/
theorem rowsum1 (c : Dev nD) (r : Fin 512) :
    Finset.sum (M := EReal) Finset.univ (fun l : Fin 128 => (dat0 V c).arrAt 1 cfg0.N (ix2 r l))
      = Finset.sum (M := EReal) Finset.univ (fun p : Fin 128 => Finset.sum (M := EReal) Finset.univ (fun q : Fin 128 =>
          V c main_v0 (ix2 r ⟨p.val * 128 + q.val, by have := p.isLt; have := q.isLt; omega⟩))) := by
  refine Eq.trans (Finset.sum_congr rfl fun l _ => ?_) (arr1_rowsum (V c main_v0) r)
  exact congrFun (final1 V c) (ix2 r l)

/-- The 128 lanes of row r of the second result array add up to the row's sum of squares. -/
theorem rowsum2 (c : Dev nD) (r : Fin 512) :
    Finset.sum (M := EReal) Finset.univ (fun l : Fin 128 => (dat0 V c).arrAt 2 cfg0.N (ix2 r l))
      = Finset.sum (M := EReal) Finset.univ (fun p : Fin 128 => Finset.sum (M := EReal) Finset.univ (fun q : Fin 128 =>
          HMul.hMul (α := EReal) (β := EReal) (γ := EReal)
            (V c main_v0 (ix2 r ⟨p.val * 128 + q.val, by have := p.isLt; have := q.isLt; omega⟩))
            (V c main_v0 (ix2 r ⟨p.val * 128 + q.val, by have := p.isLt; have := q.isLt; omega⟩)))) := by
  refine Eq.trans (Finset.sum_congr rfl fun l _ => ?_) (arr2_rowsum (V c main_v0) r)
  exact congrFun (final2 V c) (ix2 r l)

end Cert.ReferenceIdeal.Stats

end
-- ==== Proof.RefValue.lean ====
/-
  The reference's result array as the specification's function of the arguments.

  Followed back through the program's segments: the result is the reshape of the second region's array, which holds
  A r · X (r, s) + B r with X the input reshaped to [512,16384] and A, B the host's two columns; the columns are the
  host stages of the first region's two lane-partial arrays, whose row sums are the rows' raw moments (the first
  region's accumulation, re-associated); so at (n, c, ·) the result is the group chain's scale times the input's
  entry plus its shift, the chain taken at the raw moments of the channel's group.
-/
import proofs.«167197_g2000702654276885_pallasbulk_1018_2_alg».proof.Proof.RefRun
import proofs.«167197_g2000702654276885_pallasbulk_1018_2_alg».proof.Proof.RefApply
import proofs.«167197_g2000702654276885_pallasbulk_1018_2_alg».proof.Proof.RefHost
import proofs.«167197_g2000702654276885_pallasbulk_1018_2_alg».proof.Proof.RefStats
import Idealize.ShloMosaic.Lib.StableHlo.Run

set_option maxRecDepth 16384

noncomputable section

namespace Cert.ReferenceIdeal.RValue

open Cert.ReferenceIdeal Cert.ReferenceIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The fold's buffers, read -/

/-- The first region finds the input reshaped to [512,16384]. -/
theorem V1_v0 (c : Dev nD) : (V1 m ρ c main_v0 : S512x16384.Idx → EReal)
    = shapeCast S512x16384 (m ((c : Thread nD τ).loc main_arg0)) shapeCasts_S16x32x16x32x32_S512x16384 := by
  dsimp only [V1, W1, W0, hostOps0]
  after_results
  rfl

/-- The result is the reshape of the second region's array. -/
theorem W5_v83 (c : Dev nD) : (W5 m ρ c (Proc.devRef .tc main_v83) : S16x32x16x32x32.Idx → EReal)
    = shapeCast (s := S512x16384) S16x32x16x32x32 (W4 m ρ c (Proc.devRef .tc main_v82)) shapeCasts_S512x16384_S16x32x16x32x32 := by
  dsimp only [W5, hostOps2]
  after_results
  rfl

set_option maxHeartbeats 8000000 in
/-- The scale column the second region finds: the host stages of the first region's two arrays. -/
theorem V3_v71 (c : Dev nD) : (V3 m ρ c main_v71 : S512x1.Idx → EReal)
    = Host.colA (W2 m ρ c (Proc.devRef .tc main_v1_0)) (W2 m ρ c (Proc.devRef .tc main_v1_1)) (W2 m ρ c (Proc.devRef .tc main_arg1)) := by
  dsimp only [V3, W3, hostOps1]
  after_results_simp
  rfl

set_option maxHeartbeats 8000000 in
/-- The shift column the second region finds. -/
theorem V3_v81 (c : Dev nD) : (V3 m ρ c main_v81 : S512x1.Idx → EReal)
    = Host.colB (W2 m ρ c (Proc.devRef .tc main_v1_0)) (W2 m ρ c (Proc.devRef .tc main_v1_1)) (W2 m ρ c (Proc.devRef .tc main_arg1))
        (W2 m ρ c (Proc.devRef .tc main_arg2)) := by
  dsimp only [V3, W3, hostOps1]
  after_results_simp
  rfl

set_option maxHeartbeats 8000000 in
/-- The second region finds the reshaped input as the first left it. -/
theorem V3_v0 (c : Dev nD) : (V3 m ρ c main_v0 : S512x16384.Idx → EReal) = W2 m ρ c (Proc.devRef .tc main_v0) := by
  dsimp only [V3, W3, hostOps1]
  after_results_simp

/-- Neither the first region nor the stretch before it writes the scale vector. -/
theorem W2_arg1 (c : Dev nD) : W2 m ρ c (Proc.devRef .tc main_arg1) = m ((c : Thread nD τ).loc main_arg1) := by
  rw [W2_of_ne m ρ c main_arg1 (by decide)]
  dsimp only [W1, W0, hostOps0]
  after_results

/-- Nor the shift vector. -/
theorem W2_arg2 (c : Dev nD) : W2 m ρ c (Proc.devRef .tc main_arg2) = m ((c : Thread nD τ).loc main_arg2) := by
  rw [W2_of_ne m ρ c main_arg2 (by decide)]
  dsimp only [W1, W0, hostOps0]
  after_results

/-- The first region only reads its input: it leaves the array as it found it. -/
theorem W2_v0 (c : Dev nD) : W2 m ρ c (Proc.devRef .tc main_v0) = V1 m ρ c main_v0 :=
  (W2_arr m ρ c 0).trans (((dat0 (V1 m ρ) c).arrAt_in 0 rfl _).trans (A_eq0 (V1 m ρ) c 0))

/-! ## The rows' raw moments -/

/-- The reshaped input at row 32 n + c, column 128 p + q is the input at (n, c) and spatial position 128 p + q. -/
theorem x2_at (x : S16x32x16x32x32.Idx → EReal) (n : Fin 16) (ch : Fin 32) (p q : Fin 128) :
    shapeCast S512x16384 x shapeCasts_S16x32x16x32x32_S512x16384
        (ix2 ⟨n.val * 32 + ch.val, by have := n.isLt; have := ch.isLt; omega⟩ ⟨p.val * 128 + q.val, by have := p.isLt; have := q.isLt; omega⟩)
      = Spec.at4 x n ch p q := by
  unfold Spec.at4
  refine shapeCast_apply x _ _ _ ?_
  rw [Shape.rowMajor_val_five, Shape.rowMajor_val_two]
  have := n.isLt; have := ch.isLt; have := p.isLt; have := q.isLt
  show ((((n.val * 32 + ch.val) * 16 + p.val / 8) * 32 + (p.val % 8 * 4 + q.val / 32)) * 32 + q.val % 32)
    = (n.val * 32 + ch.val) * 16384 + (p.val * 128 + q.val)
  omega

/-- The sum, and the sum of squares, of the input over the spatial positions of (sample, channel). -/
def mom1 (x : S16x32x16x32x32.Idx → EReal) (n : Fin 16) (ch : Fin 32) : EReal :=
  ∑ p : Fin 128, ∑ q : Fin 128, Spec.at4 x n ch p q
def mom2 (x : S16x32x16x32x32.Idx → EReal) (n : Fin 16) (ch : Fin 32) : EReal :=
  ∑ p : Fin 128, ∑ q : Fin 128, Spec.at4 x n ch p q * Spec.at4 x n ch p q

/-- The row sums of the first region's first array are the rows' sums of the input. -/
theorem sumNC_P (c : Dev nD) (n : Fin 16) (ch : Fin 32) :
    Host.sumNC (W2 m ρ c (Proc.devRef .tc main_v1_0)) (ix2 n ch) = mom1 (m ((c : Thread nD τ).loc main_arg0)) n ch := by
  rw [Host.sumNC_apply, Spec.z0_eq, zero_add]
  have e : W2 m ρ c (Proc.devRef .tc main_v1_0) = (dat0 (V1 m ρ) c).arrAt 1 cfg0.N := W2_arr m ρ c 1
  rw [e]
  refine (Stats.rowsum1 (V1 m ρ) c _).trans ?_
  unfold mom1
  refine Finset.sum_congr rfl fun p _ => Finset.sum_congr rfl fun q _ => ?_
  rw [V1_v0]
  exact x2_at _ n ch p q

/-- The row sums of its second array are the rows' sums of squares. -/
theorem sumNC_Q (c : Dev nD) (n : Fin 16) (ch : Fin 32) :
    Host.sumNC (W2 m ρ c (Proc.devRef .tc main_v1_1)) (ix2 n ch) = mom2 (m ((c : Thread nD τ).loc main_arg0)) n ch := by
  rw [Host.sumNC_apply, Spec.z0_eq, zero_add]
  have e : W2 m ρ c (Proc.devRef .tc main_v1_1) = (dat0 (V1 m ρ) c).arrAt 2 cfg0.N := W2_arr m ρ c 2
  rw [e]
  refine (Stats.rowsum2 (V1 m ρ) c _).trans ?_
  unfold mom2
  refine Finset.sum_congr rfl fun p _ => Finset.sum_congr rfl fun q _ => ?_
  rw [V1_v0, x2_at _ n ch p q]

/-! ## The result -/

/-- The result array is the specification's function of the three arguments. -/
theorem result_eq (c : Dev nD) :
    (W5 m ρ c (Proc.devRef .tc main_v83) : S16x32x16x32x32.Idx → EReal)
      = Spec.G (m ((c.tc : Thread nD τ).loc main_arg0)) (m ((c.tc : Thread nD τ).loc main_arg1)) (m ((c.tc : Thread nD τ).loc main_arg2)) := by
  funext i
  obtain ⟨n, ch, d, h, w, rfl⟩ : ∃ (n : Fin 16) (ch : Fin 32) (d : Fin 16) (h : Fin 32) (w : Fin 32), i = ix5 n ch d h w :=
    ⟨i 0, i 1, i 2, i 3, i 4, eq_ix5 i⟩
  have hn := n.isLt; have hch := ch.isLt; have hd := d.isLt; have hh := h.isLt; have hw := w.isLt
  let r : Fin 512 := ⟨n.val * 32 + ch.val, by omega⟩
  let s : Fin 16384 := ⟨d.val * 1024 + h.val * 32 + w.val, by omega⟩
  let x : S16x32x16x32x32.Idx → EReal := m ((c.tc : Thread nD τ).loc main_arg0)
  let wv : S8.Idx → EReal := m ((c.tc : Thread nD τ).loc main_arg1)
  let bv : S8.Idx → EReal := m ((c.tc : Thread nD τ).loc main_arg2)
  let g : Fin 8 := Spec.grp ch
  let k : Fin 4 := Spec.sub ch
  have e82 : (W4 m ρ c (Proc.devRef .tc main_v82) : S512x16384.Idx → EReal)
      = Apply.rowAffine (V3 m ρ c main_v71) (V3 m ρ c main_v81) (V3 m ρ c main_v0) :=
    (W4_arr m ρ c 3).trans (Apply.final (V3 m ρ) c)
  rw [W5_v83, e82]
  refine (shapeCast_apply (s := S512x16384) (Apply.rowAffine (V3 m ρ c main_v71) (V3 m ρ c main_v81) (V3 m ρ c main_v0)) _
      (ix5 n ch d h w) (ix2 r s) (by
    rw [Shape.rowMajor_val_two, Shape.rowMajor_val_five]
    show (n.val * 32 + ch.val) * 16384 + (d.val * 1024 + h.val * 32 + w.val)
      = ((((n.val * 32 + ch.val) * 16 + d.val) * 32 + h.val) * 32 + w.val)
    omega)).trans ?_
  let A : S512x1.Idx → EReal := V3 m ρ c main_v71
  let B : S512x1.Idx → EReal := V3 m ρ c main_v81
  let X : S512x16384.Idx → EReal := V3 m ρ c main_v0
  have hi : (⟨n.val * 32 + (g.val * 4 + k.val), by have := g.isLt; have := k.isLt; omega⟩ : Fin 512) = r :=
    Fin.ext (by show n.val * 32 + (ch.val / 4 * 4 + ch.val % 4) = n.val * 32 + ch.val; omega)
  have hA : A (ix2 r 0)
      = Spec.arow (Host.grpOf (mom1 x) g) (Host.grpOf (mom2 x) g) (wv (ix1 g)) n k := by
    show (V3 m ρ c main_v71 : S512x1.Idx → EReal) (ix2 r 0) = _
    rw [V3_v71, W2_arg1, ← hi]
    exact Host.colA_spec _ _ wv (mom1 x) (mom2 x) (sumNC_P m ρ c) (sumNC_Q m ρ c) n g k 0
  have hB : B (ix2 r 0)
      = Spec.brow (Host.grpOf (mom1 x) g) (Host.grpOf (mom2 x) g) (wv (ix1 g)) (bv (ix1 g)) n k := by
    show (V3 m ρ c main_v81 : S512x1.Idx → EReal) (ix2 r 0) = _
    rw [V3_v81, W2_arg1, W2_arg2, ← hi]
    exact Host.colB_spec _ _ wv bv (mom1 x) (mom2 x) (sumNC_P m ρ c) (sumNC_Q m ρ c) n g k 0
  have hX : X (ix2 r s) = x (ix5 n ch d h w) := by
    show (V3 m ρ c main_v0 : S512x16384.Idx → EReal) (ix2 r s) = _
    rw [V3_v0, W2_v0, V1_v0]
    exact shapeCast_apply x _ (ix2 r s) (ix5 n ch d h w) (by
      rw [Shape.rowMajor_val_two, Shape.rowMajor_val_five]
      show ((((n.val * 32 + ch.val) * 16 + d.val) * 32 + h.val) * 32 + w.val)
        = (n.val * 32 + ch.val) * 16384 + (d.val * 1024 + h.val * 32 + w.val)
      omega)
  exact (congrArg₂ (· + ·) (congrArg₂ (· * ·) hA hX) hB).trans rfl

/-! ## The run, read -/

/-- Every weakly fair execution of the reference terminates with the result array at the specification's function
    of the arguments, and the arguments unchanged. -/
theorem run : θ_run (defs (F := Ideal)) (onTc (τ := τ) (main (F := Ideal))) ⟨m, fun _ => 0, ρ⟩ (fun r => ∀ c : Dev nD,
      r.2.mem ((c.tc : Thread nD τ).loc main_v83)
          = Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v83 (by decide))).trans (result_eq m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.ReferenceIdeal.RValue

end
-- ==== Proof.lean ====
/-
  The claim: a fused two-stage group normalisation kernel against a two-pass reference, over the extended reals.

  Both programs normalise x : [16,32,16,32,32] in two stages. Stage one normalises each of the 32 channels over
  the 16 samples and the 16384 spatial positions; stage two normalises each (sample, group) over the group's 4
  channels and the positions, the stage-one output's moments being derived from the raw per-(sample, channel) sums
  and sums of squares; a per-group scale and shift follow. The kernel does this in one region, one group per grid
  point, reducing each group's block over its two spatial axes; the reference sums 128-lane partials in a first
  region (four accumulation steps of 32 chunks per row block), finishes the statistics on the host, and applies
  one scale and shift per row in a second region.

  At the ideal instance both result arrays are ONE function of the arguments (Spec.G): at (n, c, ·) the chain's
  scale for (n, c) times the input's entry plus the chain's shift, the chain taken at the raw moments of c's group.
  Three laws join the two sides, none of which needs a finite input: a finite sum of extended reals may be
  regrouped and reordered (the kernel's sum over 128 × 128 positions against the reference's lanes, steps and
  chunks, and the sums starting from the zero word, which is 0); the quotient by 2^18 or 2^16 is the product with
  the reciprocal at every extended real; and the host's negation is the difference from 0. So the precondition is
  never opened. The three frames are the generated ones; the idealization rewrote nothing.
-/
import proofs.«167197_g2000702654276885_pallasbulk_1018_2_alg».proof.Defs
import proofs.«167197_g2000702654276885_pallasbulk_1018_2_alg».proof.Proof.Gen.Kernel
import proofs.«167197_g2000702654276885_pallasbulk_1018_2_alg».proof.Proof.Gen.Kernel.Frame
import proofs.«167197_g2000702654276885_pallasbulk_1018_2_alg».proof.Proof.Gen.KernelIdeal
import proofs.«167197_g2000702654276885_pallasbulk_1018_2_alg».proof.Proof.Gen.KernelIdeal.Frame
import proofs.«167197_g2000702654276885_pallasbulk_1018_2_alg».proof.Proof.Gen.ReferenceIdeal
import proofs.«167197_g2000702654276885_pallasbulk_1018_2_alg».proof.Proof.Gen.ReferenceIdeal.Frame
import proofs.«167197_g2000702654276885_pallasbulk_1018_2_alg».proof.Proof.Gen.Pre_finite_inputs
import proofs.«167197_g2000702654276885_pallasbulk_1018_2_alg».proof.Proof.KernelValue
import proofs.«167197_g2000702654276885_pallasbulk_1018_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ
/-- So does the idealized kernel. -/
theorem frame_ki : Cert.frame_KernelIdeal := fun m ρ _ => Cert.KernelIdeal.Gen.frame m ρ
/-- So does the idealized reference. -/
theorem frame_ri : Cert.frame_ReferenceIdeal := fun m ρ _ => Cert.ReferenceIdeal.Gen.frame m ρ

/-- The idealization rewrote no operation. -/
theorem preserves : Cert.preserves_Kernel_KernelIdeal := trivial

/-- From memories agreeing on the arguments both idealized programs end with the normalised array Spec.G of the
    arguments as their result. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.RValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
